-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S256x256 : Shape := ⟨2, ![256, 256]⟩
abbrev S256 : Shape := ⟨1, ![256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S8x2048x256 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S8x2048x256 : Shape := ⟨3, ![8, 2048, 256]⟩
abbrev S256x256 : Shape := ⟨2, ![256, 256]⟩
abbrev S256 : Shape := ⟨1, ![256]⟩
abbrev S1x256 : Shape := ⟨2, ![1, 256]⟩
abbrev S1x2048x256 : Shape := ⟨3, ![1, 2048, 256]⟩
abbrev S2048x256 : Shape := ⟨2, ![2048, 256]⟩
abbrev S2048x2048 : Shape := ⟨2, ![2048, 2048]⟩
abbrev S1x2048 : Shape := ⟨2, ![1, 2048]⟩
abbrev S256x2048 : Shape := ⟨2, ![256, 2048]⟩
abbrev S2048 : Shape := ⟨1, ![2048]⟩
abbrev S1x256x256 : Shape := ⟨3, ![1, 256, 256]⟩

abbrev nBuf : Space → Nat
  | .hbm => 14
  | .vmem => 15
  | .smem => 0
  | _ => 0

abbrev bufTy : (tb : Table) → Fin (tcTables nBuf tb) → BufTy
  | .hbm, ⟨0, _⟩ => ⟨S8x2048x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S1x256, .f32⟩
  | .hbm, ⟨11, _⟩ => ⟨S1x256, .f32⟩
  | .hbm, ⟨12, _⟩ => ⟨S1x256, .f32⟩
  | .hbm, ⟨13, _⟩ => ⟨S8x2048x256, .f32⟩
  | .local _ .vmem, ⟨0, _⟩ => ⟨S1x2048x256, .f32⟩
  | .local _ .vmem, ⟨1, _⟩ => ⟨S1x2048x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S1x2048x256, .f32⟩
  | .local _ .vmem, ⟨9, _⟩ => ⟨S1x2048x256, .f32⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x2048, .bf16⟩
  | .local _ .vmem, ⟨14, _⟩ => ⟨S1x2048, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S256x256_S256x256_1_0 : S256x256.Transposes [1, 0] S256x256
  shapeCasts_S256_S1x256 : S256.ShapeCasts S1x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  packedbf16_S2048x256_S2048x256_0_0 : (Rect.unit (s := S2048x256) ![0, 0] S2048x256.size inb_S2048x256_S2048x256_0_0).PackedRows (EltTy.packing .bf16)
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  transposes_S2048x256_p1_0_S256x2048 : S2048x256.Transposes [1, 0] S256x2048
  inb_S2048x256_S256x256_0_0 : ∀ a, (![0, 0] : Fin 2 → Nat) a + S256x256.size a ≤ S2048x256.size a
  reduces_S256x2048_S2048 : S256x2048.Reduces [0] S2048
  shapeCasts_S2048_S1x2048 : S2048.ShapeCasts S1x2048
  inb_S2048x2048_S256x2048_0_0 : ∀ a, (![0, 0] : Fin 2 → Nat) a + S256x2048.size a ≤ S2048x2048.size a
  h_S256x2048 : 0 < S256x2048.numel
  shapeCasts_S256x2048_S256x2048 : S256x2048.ShapeCasts S256x2048
  packedbf16_S2048x2048_S256x2048_0_0 : (Rect.unit (s := S2048x2048) ![0, 0] S256x2048.size inb_S2048x2048_S256x2048_0_0).PackedRows (EltTy.packing .bf16)
  inb_S2048x256_S256x256_256_0 : ∀ a, (![256, 0] : Fin 2 → Nat) a + S256x256.size a ≤ S2048x256.size a
  inb_S2048x2048_S256x2048_256_0 : ∀ a, (![256, 0] : Fin 2 → Nat) a + S256x2048.size a ≤ S2048x2048.size a
  packedbf16_S2048x2048_S256x2048_256_0 : (Rect.unit (s := S2048x2048) ![256, 0] S256x2048.size inb_S2048x2048_S256x2048_256_0).PackedRows (EltTy.packing .bf16)
  inb_S2048x256_S256x256_512_0 : ∀ a, (![512, 0] : Fin 2 → Nat) a + S256x256.size a ≤ S2048x256.size a
  inb_S2048x2048_S256x2048_512_0 : ∀ a, (![512, 0] : Fin 2 → Nat) a + S256x2048.size a ≤ S2048x2048.size a
  packedbf16_S2048x2048_S256x2048_512_0 : (Rect.unit (s := S2048x2048) ![512, 0] S256x2048.size inb_S2048x2048_S256x2048_512_0).PackedRows (EltTy.packing .bf16)
  inb_S2048x256_S256x256_768_0 : ∀ a, (![768, 0] : Fin 2 → Nat) a + S256x256.size a ≤ S2048x256.size a
  inb_S2048x2048_S256x2048_768_0 : ∀ a, (![768, 0] : Fin 2 → Nat) a + S256x2048.size a ≤ S2048x2048.size a
  packedbf16_S2048x2048_S256x2048_768_0 : (Rect.unit (s := S2048x2048) ![768, 0] S256x2048.size inb_S2048x2048_S256x2048_768_0).PackedRows (EltTy.packing .bf16)
  inb_S2048x256_S256x256_1024_0 : ∀ a, (![1024, 0] : Fin 2 → Nat) a + S256x256.size a ≤ S2048x256.size a
  inb_S2048x2048_S256x2048_1024_0 : ∀ a, (![1024, 0] : Fin 2 → Nat) a + S256x2048.size a ≤ S2048x2048.size a
  packedbf16_S2048x2048_S256x2048_1024_0 : (Rect.unit (s := S2048x2048) ![1024, 0] S256x2048.size inb_S2048x2048_S256x2048_1024_0).PackedRows (EltTy.packing .bf16)
  inb_S2048x256_S256x256_1280_0 : ∀ a, (![1280, 0] : Fin 2 → Nat) a + S256x256.size a ≤ S2048x256.size a
  inb_S2048x2048_S256x2048_1280_0 : ∀ a, (![1280, 0] : Fin 2 → Nat) a + S256x2048.size a ≤ S2048x2048.size a
  packedbf16_S2048x2048_S256x2048_1280_0 : (Rect.unit (s := S2048x2048) ![1280, 0] S256x2048.size inb_S2048x2048_S256x2048_1280_0).PackedRows (EltTy.packing .bf16)
  inb_S2048x256_S256x256_1536_0 : ∀ a, (![1536, 0] : Fin 2 → Nat) a + S256x256.size a ≤ S2048x256.size a
  inb_S2048x2048_S256x2048_1536_0 : ∀ a, (![1536, 0] : Fin 2 → Nat) a + S256x2048.size a ≤ S2048x2048.size a
  packedbf16_S2048x2048_S256x2048_1536_0 : (Rect.unit (s := S2048x2048) ![1536, 0] S256x2048.size inb_S2048x2048_S256x2048_1536_0).PackedRows (EltTy.packing .bf16)
  inb_S2048x256_S256x256_1792_0 : ∀ a, (![1792, 0] : Fin 2 → Nat) a + S256x256.size a ≤ S2048x256.size a
  inb_S2048x2048_S256x2048_1792_0 : ∀ a, (![1792, 0] : Fin 2 → Nat) a + S256x2048.size a ≤ S2048x2048.size a
  packedbf16_S2048x2048_S256x2048_1792_0 : (Rect.unit (s := S2048x2048) ![1792, 0] S256x2048.size inb_S2048x2048_S256x2048_1792_0).PackedRows (EltTy.packing .bf16)
  broadcasts_S1x2048_S256x2048 : S1x2048.Broadcasts S256x2048
  inb_S1x2048x256_S1x256x256_0_0_0 : ∀ a, (![0, 0, 0] : Fin 3 → Nat) a + S1x256x256.size a ≤ S1x2048x256.size a
  h_S1x256x256 : 0 < S1x256x256.numel
  shapeCasts_S1x256x256_S256x256 : S1x256x256.ShapeCasts S256x256
  shapeCasts_S256x256_S1x256x256 : S256x256.ShapeCasts S1x256x256
  inb_S1x2048x256_S1x256x256_0_256_0 : ∀ a, (![0, 256, 0] : Fin 3 → Nat) a + S1x256x256.size a ≤ S1x2048x256.size a
  inb_S1x2048x256_S1x256x256_0_512_0 : ∀ a, (![0, 512, 0] : Fin 3 → Nat) a + S1x256x256.size a ≤ S1x2048x256.size a
  inb_S1x2048x256_S1x256x256_0_768_0 : ∀ a, (![0, 768, 0] : Fin 3 → Nat) a + S1x256x256.size a ≤ S1x2048x256.size a
  inb_S1x2048x256_S1x256x256_0_1024_0 : ∀ a, (![0, 1024, 0] : Fin 3 → Nat) a + S1x256x256.size a ≤ S1x2048x256.size a
  inb_S1x2048x256_S1x256x256_0_1280_0 : ∀ a, (![0, 1280, 0] : Fin 3 → Nat) a + S1x256x256.size a ≤ S1x2048x256.size a
  inb_S1x2048x256_S1x256x256_0_1536_0 : ∀ a, (![0, 1536, 0] : Fin 3 → Nat) a + S1x256x256.size a ≤ S1x2048x256.size a
  inb_S1x2048x256_S1x256x256_0_1792_0 : ∀ a, (![0, 1792, 0] : Fin 3 → Nat) a + S1x256x256.size a ≤ S1x2048x256.size a
  dot_S2048x256_S256x256_S2048x256_1_0_0_1_n_n_wf : DotDims.WF S2048x256 S256x256 S2048x256 [1] [0] [0] [1] [] []
  dot_S256x256_S256x2048_S256x2048_1_0_0_1_n_n_wf : DotDims.WF S256x256 S256x2048 S256x2048 [1] [0] [0] [1] [] []
  dot_S256x2048_S2048x256_S256x256_1_0_0_1_n_n_wf : DotDims.WF S256x2048 S2048x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x2048x256.size a
  hwx0_0 : ∀ i : grid0.Coords, EltTy.bits .f32 = 32 ∨ (Rect.block (s := S8x2048x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2048x256.size a ≤ S8x2048x256.size a
  hwx0_7 : ∀ i : grid0.Coords, EltTy.bits .f32 = 32 ∨ (Rect.block (s := S8x2048x256) S1x2048x256.size (cc0_transform_7 i) (hinb0_7 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S256x256_S256x2048_S256x2048_1_0_0_1_n_n : DotDims S256x256 S256x2048 S256x2048 where
  lhsContracting := [1]
  rhsContracting := [0]
  lhsNonContracting := [0]
  rhsNonContracting := [1]
  lhsBatch := []
  rhsBatch := []
  wf := dot_S256x256_S256x2048_S256x2048_1_0_0_1_n_n_wf
def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x2048x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x2048x256 : Shape := ⟨3, ![8, 2048, 256]⟩
abbrev S256x256 : Shape := ⟨2, ![256, 256]⟩
abbrev S256 : Shape := ⟨1, ![256]⟩
abbrev S1x1x256 : Shape := ⟨3, ![1, 1, 256]⟩
abbrev S8x2048x2048 : Shape := ⟨3, ![8, 2048, 2048]⟩
abbrev S_ : Shape := ⟨0, ![]⟩
abbrev S8x2048 : Shape := ⟨2, ![8, 2048]⟩
abbrev S8x1x2048 : Shape := ⟨3, ![8, 1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S8x2048x256, .f32⟩
  | .hbm, ⟨8, _⟩ => ⟨S1x1x256, .f32⟩
  | .hbm, ⟨9, _⟩ => ⟨S8x2048x256, .f32⟩
  | .hbm, ⟨10, _⟩ => ⟨S8x2048x256, .f32⟩
  | .hbm, ⟨11, _⟩ => ⟨S8x2048x256, .f32⟩
  | .hbm, ⟨12, _⟩ => ⟨S1x1x256, .f32⟩
  | .hbm, ⟨13, _⟩ => ⟨S8x2048x256, .f32⟩
  | .hbm, ⟨14, _⟩ => ⟨S8x2048x256, .f32⟩
  | .hbm, ⟨15, _⟩ => ⟨S8x2048x256, .f32⟩
  | .hbm, ⟨16, _⟩ => ⟨S1x1x256, .f32⟩
  | .hbm, ⟨17, _⟩ => ⟨S8x2048x256, .f32⟩
  | .hbm, ⟨18, _⟩ => ⟨S8x2048x256, .f32⟩
  | .hbm, ⟨19, _⟩ => ⟨S8x2048x2048, .f32⟩
  | .hbm, ⟨20, _⟩ => ⟨S_, .f32⟩
  | .hbm, ⟨21, _⟩ => ⟨S8x2048x2048, .f32⟩
  | .hbm, ⟨22, _⟩ => ⟨S8x2048x2048, .f32⟩
  | .hbm, ⟨23, _⟩ => ⟨S_, .f32⟩
  | .hbm, ⟨24, _⟩ => ⟨S8x2048, .f32⟩
  | .hbm, ⟨25, _⟩ => ⟨S_, .f32⟩
  | .hbm, ⟨26, _⟩ => ⟨S8x2048, .f32⟩
  | .hbm, ⟨27, _⟩ => ⟨S8x2048, .f32⟩
  | .hbm, ⟨28, _⟩ => ⟨S8x1x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S8x2048, .f32⟩
  | .hbm, ⟨34, _⟩ => ⟨S8x1x2048, .f32⟩
  | .hbm, ⟨35, _⟩ => ⟨S8x2048x2048, .f32⟩
  | .hbm, ⟨36, _⟩ => ⟨S8x2048x2048, .f32⟩
  | .hbm, ⟨37, _⟩ => ⟨S8x2048x256, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  bcast_S_S8x2048x2048 : S_.BroadcastsInDim S8x2048x2048 (![] : Fin 0 → Fin S8x2048x2048.rank)
  reducesTo_S8x2048x2048_S8x2048_d1 : S8x2048x2048.ReducesTo [1] S8x2048
  h_S_ : 0 < S_.numel
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  dot_S8x2048x256_S256x256_S8x2048x256_2_1_01_0_n_n_wf : DotDims.WF S8x2048x256 S256x256 S8x2048x256 [2] [1] [0, 1] [0] [] []
  dot_S8x2048x256_S8x2048x256_S8x2048x2048_2_2_1_1_0_0_wf : DotDims.WF S8x2048x256 S8x2048x256 S8x2048x2048 [2] [2] [1] [1] [0] [0]
  dot_S8x2048x2048_S8x2048x256_S8x2048x256_2_1_1_2_0_0_wf : DotDims.WF S8x2048x2048 S8x2048x256 S8x2048x256 [2] [1] [1] [2] [0] [0]

variable [Facts₀]

def dot_S8x2048x256_S256x256_S8x2048x256_2_1_01_0_n_n : DotDims S8x2048x256 S256x256 S8x2048x256 where
  lhsContracting := [2]
  rhsContracting := [1]
  lhsNonContracting := [0, 1]
  rhsNonContracting := [0]
  lhsBatch := []
  rhsBatch := []
  wf := dot_S8x2048x256_S256x256_S8x2048x256_2_1_01_0_n_n_wf
def dot_S8x2048x256_S8x2048x256_S8x2048x2048_2_2_1_1_0_0 : DotDims S8x2048x256 S8x2048x256 S8x2048x2048 where
  lhsContracting := [2]
  rhsContracting := [2]
  lhsNonContracting := [1]
  rhsNonContracting := [1]
  lhsBatch := [0]
  rhsBatch := [0]
  wf := dot_S8x2048x256_S8x2048x256_S8x2048x2048_2_2_1_1_0_0_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf

class Facts : Prop extends Facts₀ where

variable [Facts]
-- ==== Proof.KernelWords.lean ====
/-
  What each load of the kernel body reads, and what each store writes, as uniform functions of the seven input blocks.

  The body projects the queries, keys and values once and keeps them (rounded, which at the ideal values is nothing) in
  three scratch matrices; it then walks the 2048 queries in eight tiles of 256 rows twice. In the first walk tile t
  forms E_t = exp ((Q_t Kᵀ) * 2⁻⁸), adds its column sums to a running row L, and keeps E_t in a [2048, 2048] scratch at
  rows 256 t …; in the second walk tile t reads E_t back, scales column k by 1 / L(k) and multiplies by V. The printed
  body spells the sixteen tile passes with differently grouped intermediate values; here each is shown to be the same
  function — `Et` (a tile's exponentials), `Eb` (as kept), `L0 … L8` (the running normaliser), `invL`, `Ot` (an
  output tile) — and every load of a scratch buffer is shown to read the value last stored on those rows. Nothing here
  depends on how a float is read: the statements hold at every instance.
-/
import proofs.«160842_j22067541967525_2_alg».proof.Proof.Gen.KernelIdeal.Frame
import Idealize.ShloMosaic.Lib.Pipeline.Value
import Idealize.ShloMosaic.Lib.Pipeline.RowLoads

set_option maxRecDepth 16384

noncomputable section

namespace Cert.KernelIdeal.Words

open Cert.KernelIdeal Cert.KernelIdeal.Gen Idealize.ShloMosaic Idealize.ShloMosaic.TcCoe Idealize.ShloMosaic.ValueIdx Idealize.SL.Sem
open Idealize.ShloMosaic.RowLoads (rowsFrom)

variable {F : FTy → Type} [FloatOps F]

theorem hz2 : (![0, 0] : Fin 2 → Nat) = fun _ => 0 := by funext a; fin_cases a <;> rfl
theorem hz3 : (![0, 0, 0] : Fin 3 → Nat) = fun _ => 0 := by funext a; fin_cases a <;> rfl

/-! ## The uniform functions -/

/-- The projected queries, keys and values as the body keeps them: [2048, 256] each. -/
abbrev Qm (x0 : Vec F S1x2048x256 .f32) (x1 : Vec F S256x256 .f32) (x2 : Vec F S1x256 .f32) : FVec F S2048x256 .bf16 := k0_pay5 x0 x1 x2
abbrev Km (x0 : Vec F S1x2048x256 .f32) (x3 : Vec F S256x256 .f32) (x4 : Vec F S1x256 .f32) : FVec F S2048x256 .bf16 := k0_pay6 x0 x3 x4
abbrev Vm (x0 : Vec F S1x2048x256 .f32) (x5 : Vec F S256x256 .f32) (x6 : Vec F S1x256 .f32) : FVec F S2048x256 .bf16 := k0_pay7 (k0_pay4 x0 x5 x6)
/-- The keys transposed, [256, 2048]. -/
abbrev kT (x0 : Vec F S1x2048x256 .f32) (x3 : Vec F S256x256 .f32) (x4 : Vec F S1x256 .f32) : FVec F S256x2048 .bf16 := k0_pay9 (Km x0 x3 x4)
/-- Rows o … o + 255 of the kept queries. -/
abbrev qt (x0 : Vec F S1x2048x256 .f32) (x1 : Vec F S256x256 .f32) (x2 : Vec F S1x256 .f32) (o : Nat) (h : o + 256 ≤ 2048) : Vec F S256x256 .bf16 :=
  rowsFrom 256 (Qm x0 x1 x2) o h

/-- The exponentials of the scaled scores of the query tile at row o against every key: [256, 2048]. -/
def Et (x0 : Vec F S1x2048x256 .f32) (x1 : Vec F S256x256 .f32) (x2 : Vec F S1x256 .f32) (x3 : Vec F S256x256 .f32) (x4 : Vec F S1x256 .f32) (o : Nat) (h : o + 256 ≤ 2048) : FVec F S256x2048 .f32 :=
  k0_pay16 (kT x0 x3 x4) (qt x0 x1 x2 o h)
/-- The same tile as it is kept in scratch. -/
def Eb (x0 : Vec F S1x2048x256 .f32) (x1 : Vec F S256x256 .f32) (x2 : Vec F S1x256 .f32) (x3 : Vec F S256x256 .f32) (x4 : Vec F S1x256 .f32) (o : Nat) (h : o + 256 ≤ 2048) : FVec F S256x2048 .bf16 :=
  k0_pay15 (Et x0 x1 x2 x3 x4 o h)

/-- The running normaliser: the zero row, then after each tile the row so far plus that tile's column sums. -/
def L0 : FVec F S1x2048 .f32 := k0_pay8
def L1 (x0 : Vec F S1x2048x256 .f32) (x1 : Vec F S256x256 .f32) (x2 : Vec F S1x256 .f32) (x3 : Vec F S256x256 .f32) (x4 : Vec F S1x256 .f32) : FVec F S1x2048 .f32 := k0_pay14 (Et x0 x1 x2 x3 x4 0 (by decide)) (L0)
def L2 (x0 : Vec F S1x2048x256 .f32) (x1 : Vec F S256x256 .f32) (x2 : Vec F S1x256 .f32) (x3 : Vec F S256x256 .f32) (x4 : Vec F S1x256 .f32) : FVec F S1x2048 .f32 := k0_pay14 (Et x0 x1 x2 x3 x4 256 (by decide)) (L1 x0 x1 x2 x3 x4)
def L3 (x0 : Vec F S1x2048x256 .f32) (x1 : Vec F S256x256 .f32) (x2 : Vec F S1x256 .f32) (x3 : Vec F S256x256 .f32) (x4 : Vec F S1x256 .f32) : FVec F S1x2048 .f32 := k0_pay14 (Et x0 x1 x2 x3 x4 512 (by decide)) (L2 x0 x1 x2 x3 x4)
def L4 (x0 : Vec F S1x2048x256 .f32) (x1 : Vec F S256x256 .f32) (x2 : Vec F S1x256 .f32) (x3 : Vec F S256x256 .f32) (x4 : Vec F S1x256 .f32) : FVec F S1x2048 .f32 := k0_pay14 (Et x0 x1 x2 x3 x4 768 (by decide)) (L3 x0 x1 x2 x3 x4)
def L5 (x0 : Vec F S1x2048x256 .f32) (x1 : Vec F S256x256 .f32) (x2 : Vec F S1x256 .f32) (x3 : Vec F S256x256 .f32) (x4 : Vec F S1x256 .f32) : FVec F S1x2048 .f32 := k0_pay14 (Et x0 x1 x2 x3 x4 1024 (by decide)) (L4 x0 x1 x2 x3 x4)
def L6 (x0 : Vec F S1x2048x256 .f32) (x1 : Vec F S256x256 .f32) (x2 : Vec F S1x256 .f32) (x3 : Vec F S256x256 .f32) (x4 : Vec F S1x256 .f32) : FVec F S1x2048 .f32 := k0_pay14 (Et x0 x1 x2 x3 x4 1280 (by decide)) (L5 x0 x1 x2 x3 x4)
def L7 (x0 : Vec F S1x2048x256 .f32) (x1 : Vec F S256x256 .f32) (x2 : Vec F S1x256 .f32) (x3 : Vec F S256x256 .f32) (x4 : Vec F S1x256 .f32) : FVec F S1x2048 .f32 := k0_pay14 (Et x0 x1 x2 x3 x4 1536 (by decide)) (L6 x0 x1 x2 x3 x4)
def L8 (x0 : Vec F S1x2048x256 .f32) (x1 : Vec F S256x256 .f32) (x2 : Vec F S1x256 .f32) (x3 : Vec F S256x256 .f32) (x4 : Vec F S1x256 .f32) : FVec F S1x2048 .f32 := k0_pay14 (Et x0 x1 x2 x3 x4 1792 (by decide)) (L7 x0 x1 x2 x3 x4)
/-- The reciprocal row 1 / L. -/
def invL (x0 : Vec F S1x2048x256 .f32) (x1 : Vec F S256x256 .f32) (x2 : Vec F S1x256 .f32) (x3 : Vec F S256x256 .f32) (x4 : Vec F S1x256 .f32) : FVec F S1x2048 .f32 := k0_pay37 (L8 x0 x1 x2 x3 x4)
/-- The output tile of the query tile at row o: the kept exponentials, column k scaled by 1 / L(k), times the values. -/
def Ot (x0 : Vec F S1x2048x256 .f32) (x1 : Vec F S256x256 .f32) (x2 : Vec F S1x256 .f32) (x3 : Vec F S256x256 .f32) (x4 : Vec F S1x256 .f32) (x5 : Vec F S256x256 .f32) (x6 : Vec F S1x256 .f32) (o : Nat) (h : o + 256 ≤ 2048) : FVec F S1x256x256 .f32 :=
  k0_pay42 (invL x0 x1 x2 x3 x4) (Vm x0 x5 x6) (Eb x0 x1 x2 x3 x4 o h)

/-! ## The loads of the three projected matrices -/

theorem w_v43 (c : Dev nD) (arg1 : Memref sig .tc .vmem S1x2048x256 .f32) (harg1 : arg1.IsWhole) (arg4 : Memref sig .tc .vmem S256x256 .f32) (harg4 : arg4.IsWhole) (arg5 : Memref sig .tc .vmem S1x256 .f32) (harg5 : arg5.IsWhole) (arg10 : Memref sig .tc .vmem S2048x256 .bf16) (x0 : Vec F S1x2048x256 .f32) (x3 : Vec F S256x256 .f32) (x4 : Vec F S1x256 .f32) : kernelRun0_A.sl.v43 c arg1 harg1 arg4 harg4 arg5 harg5 arg10 x0 x3 x4 = Km x0 x3 x4 := by
  unfold kernelRun0_A.sl.v43 kernelRun0_A.sl.HS1_1
  rw [View.readCov_unit_zero _ hz2]
  simp only [View.readAt_eq_ld, harg1.read_unread, harg4.read_unread, harg5.read_unread, View.ld_unit_zero (S := S1x2048x256) hz3, View.ld_unit_zero (S := S256x256) hz2, View.ld_unit_zero (S := S1x256) hz2]

theorem w_r1 (c : Dev nD) (arg1 : Memref sig .tc .vmem S1x2048x256 .f32) (harg1 : arg1.IsWhole) (arg4 : Memref sig .tc .vmem S256x256 .f32) (harg4 : arg4.IsWhole) (arg5 : Memref sig .tc .vmem S1x256 .f32) (harg5 : arg5.IsWhole) (arg10 : Memref sig .tc .vmem S2048x256 .bf16) (x0 : Vec F S1x2048x256 .f32) (x3 : Vec F S256x256 .f32) (x4 : Vec F S1x256 .f32) : kernelRun0_A.sl.r_1 c arg1 harg1 arg4 harg4 arg5 harg5 arg10 x0 x3 x4 = kT x0 x3 x4 := by
  unfold kernelRun0_A.sl.r_1; rw [w_v43]

theorem w_v176 (c : Dev nD) (arg1 : Memref sig .tc .vmem S1x2048x256 .f32) (harg1 : arg1.IsWhole) (arg6 : Memref sig .tc .vmem S256x256 .f32) (harg6 : arg6.IsWhole) (arg7 : Memref sig .tc .vmem S1x256 .f32) (harg7 : arg7.IsWhole) (arg11 : Memref sig .tc .vmem S2048x256 .bf16) (x0 : Vec F S1x2048x256 .f32) (x5 : Vec F S256x256 .f32) (x6 : Vec F S1x256 .f32) : kernelRun0_A.sl.v176 c arg1 harg1 arg6 harg6 arg7 harg7 arg11 x0 x5 x6 = Vm x0 x5 x6 := by
  unfold kernelRun0_A.sl.v176 kernelRun0_A.sl.HS2_1 kernelRun0_A.sl.r
  rw [View.readCov_unit_zero _ hz2]
  simp only [View.readAt_eq_ld, harg1.read_unread, harg6.read_unread, harg7.read_unread, View.ld_unit_zero (S := S1x2048x256) hz3, View.ld_unit_zero (S := S256x256) hz2, View.ld_unit_zero (S := S1x256) hz2]

theorem w_q0 (c : Dev nD) (arg1 : Memref sig .tc .vmem S1x2048x256 .f32) (harg1 : arg1.IsWhole) (arg2 : Memref sig .tc .vmem S256x256 .f32) (harg2 : arg2.IsWhole) (arg3 : Memref sig .tc .vmem S1x256 .f32) (harg3 : arg3.IsWhole) (arg9 : Memref sig .tc .vmem S2048x256 .bf16) (x0 : Vec F S1x2048x256 .f32) (x1 : Vec F S256x256 .f32) (x2 : Vec F S1x256 .f32) : kernelRun0_A.sl.v45 c arg1 harg1 arg2 harg2 arg3 harg3 arg9 x0 x1 x2 = qt x0 x1 x2 0 (by decide) := by
  unfold kernelRun0_A.sl.v45 kernelRun0_A.sl.HS0_1
  rw [View.readCov_eq_canon', View.canon_unit_zero hz2]
  simp only [View.readAt_eq_ld, harg1.read_unread, harg2.read_unread, harg3.read_unread, View.ld_unit_zero (S := S1x2048x256) hz3, View.ld_unit_zero (S := S256x256) hz2, View.ld_unit_zero (S := S1x256) hz2]
  funext j
  unfold qt rowsFrom
  refine congrArg _ ?_
  funext a; apply Fin.ext
  fin_cases a
  · show 0 + 1 * (j 0).val = 0 + (j 0).val; omega
  · show 0 + 1 * (j 1).val = (j 1).val; omega

theorem w_q1 (c : Dev nD) (arg1 : Memref sig .tc .vmem S1x2048x256 .f32) (harg1 : arg1.IsWhole) (arg2 : Memref sig .tc .vmem S256x256 .f32) (harg2 : arg2.IsWhole) (arg3 : Memref sig .tc .vmem S1x256 .f32) (harg3 : arg3.IsWhole) (arg9 : Memref sig .tc .vmem S2048x256 .bf16) (x0 : Vec F S1x2048x256 .f32) (x1 : Vec F S256x256 .f32) (x2 : Vec F S1x256 .f32) : kernelRun0_A.sl.v61 c arg1 harg1 arg2 harg2 arg3 harg3 arg9 x0 x1 x2 = qt x0 x1 x2 256 (by decide) := by
  unfold kernelRun0_A.sl.v61 kernelRun0_A.sl.HS0_1
  rw [View.readCov_eq_canon', View.canon_unit_zero hz2]
  simp only [View.readAt_eq_ld, harg1.read_unread, harg2.read_unread, harg3.read_unread, View.ld_unit_zero (S := S1x2048x256) hz3, View.ld_unit_zero (S := S256x256) hz2, View.ld_unit_zero (S := S1x256) hz2]
  funext j
  unfold qt rowsFrom
  refine congrArg _ ?_
  funext a; apply Fin.ext
  fin_cases a
  · show 256 + 1 * (j 0).val = 256 + (j 0).val; omega
  · show 0 + 1 * (j 1).val = (j 1).val; omega

theorem w_q2 (c : Dev nD) (arg1 : Memref sig .tc .vmem S1x2048x256 .f32) (harg1 : arg1.IsWhole) (arg2 : Memref sig .tc .vmem S256x256 .f32) (harg2 : arg2.IsWhole) (arg3 : Memref sig .tc .vmem S1x256 .f32) (harg3 : arg3.IsWhole) (arg9 : Memref sig .tc .vmem S2048x256 .bf16) (x0 : Vec F S1x2048x256 .f32) (x1 : Vec F S256x256 .f32) (x2 : Vec F S1x256 .f32) : kernelRun0_A.sl.v77 c arg1 harg1 arg2 harg2 arg3 harg3 arg9 x0 x1 x2 = qt x0 x1 x2 512 (by decide) := by
  unfold kernelRun0_A.sl.v77 kernelRun0_A.sl.HS0_1
  rw [View.readCov_eq_canon', View.canon_unit_zero hz2]
  simp only [View.readAt_eq_ld, harg1.read_unread, harg2.read_unread, harg3.read_unread, View.ld_unit_zero (S := S1x2048x256) hz3, View.ld_unit_zero (S := S256x256) hz2, View.ld_unit_zero (S := S1x256) hz2]
  funext j
  unfold qt rowsFrom
  refine congrArg _ ?_
  funext a; apply Fin.ext
  fin_cases a
  · show 512 + 1 * (j 0).val = 512 + (j 0).val; omega
  · show 0 + 1 * (j 1).val = (j 1).val; omega

theorem w_q3 (c : Dev nD) (arg1 : Memref sig .tc .vmem S1x2048x256 .f32) (harg1 : arg1.IsWhole) (arg2 : Memref sig .tc .vmem S256x256 .f32) (harg2 : arg2.IsWhole) (arg3 : Memref sig .tc .vmem S1x256 .f32) (harg3 : arg3.IsWhole) (arg9 : Memref sig .tc .vmem S2048x256 .bf16) (x0 : Vec F S1x2048x256 .f32) (x1 : Vec F S256x256 .f32) (x2 : Vec F S1x256 .f32) : kernelRun0_A.sl.v93 c arg1 harg1 arg2 harg2 arg3 harg3 arg9 x0 x1 x2 = qt x0 x1 x2 768 (by decide) := by
  unfold kernelRun0_A.sl.v93 kernelRun0_A.sl.HS0_1
  rw [View.readCov_eq_canon', View.canon_unit_zero hz2]
  simp only [View.readAt_eq_ld, harg1.read_unread, harg2.read_unread, harg3.read_unread, View.ld_unit_zero (S := S1x2048x256) hz3, View.ld_unit_zero (S := S256x256) hz2, View.ld_unit_zero (S := S1x256) hz2]
  funext j
  unfold qt rowsFrom
  refine congrArg _ ?_
  funext a; apply Fin.ext
  fin_cases a
  · show 768 + 1 * (j 0).val = 768 + (j 0).val; omega
  · show 0 + 1 * (j 1).val = (j 1).val; omega

theorem w_q4 (c : Dev nD) (arg1 : Memref sig .tc .vmem S1x2048x256 .f32) (harg1 : arg1.IsWhole) (arg2 : Memref sig .tc .vmem S256x256 .f32) (harg2 : arg2.IsWhole) (arg3 : Memref sig .tc .vmem S1x256 .f32) (harg3 : arg3.IsWhole) (arg9 : Memref sig .tc .vmem S2048x256 .bf16) (x0 : Vec F S1x2048x256 .f32) (x1 : Vec F S256x256 .f32) (x2 : Vec F S1x256 .f32) : kernelRun0_A.sl.v109 c arg1 harg1 arg2 harg2 arg3 harg3 arg9 x0 x1 x2 = qt x0 x1 x2 1024 (by decide) := by
  unfold kernelRun0_A.sl.v109 kernelRun0_A.sl.HS0_1
  rw [View.readCov_eq_canon', View.canon_unit_zero hz2]
  simp only [View.readAt_eq_ld, harg1.read_unread, harg2.read_unread, harg3.read_unread, View.ld_unit_zero (S := S1x2048x256) hz3, View.ld_unit_zero (S := S256x256) hz2, View.ld_unit_zero (S := S1x256) hz2]
  funext j
  unfold qt rowsFrom
  refine congrArg _ ?_
  funext a; apply Fin.ext
  fin_cases a
  · show 1024 + 1 * (j 0).val = 1024 + (j 0).val; omega
  · show 0 + 1 * (j 1).val = (j 1).val; omega

theorem w_q5 (c : Dev nD) (arg1 : Memref sig .tc .vmem S1x2048x256 .f32) (harg1 : arg1.IsWhole) (arg2 : Memref sig .tc .vmem S256x256 .f32) (harg2 : arg2.IsWhole) (arg3 : Memref sig .tc .vmem S1x256 .f32) (harg3 : arg3.IsWhole) (arg9 : Memref sig .tc .vmem S2048x256 .bf16) (x0 : Vec F S1x2048x256 .f32) (x1 : Vec F S256x256 .f32) (x2 : Vec F S1x256 .f32) : kernelRun0_A.sl.v125 c arg1 harg1 arg2 harg2 arg3 harg3 arg9 x0 x1 x2 = qt x0 x1 x2 1280 (by decide) := by
  unfold kernelRun0_A.sl.v125 kernelRun0_A.sl.HS0_1
  rw [View.readCov_eq_canon', View.canon_unit_zero hz2]
  simp only [View.readAt_eq_ld, harg1.read_unread, harg2.read_unread, harg3.read_unread, View.ld_unit_zero (S := S1x2048x256) hz3, View.ld_unit_zero (S := S256x256) hz2, View.ld_unit_zero (S := S1x256) hz2]
  funext j
  unfold qt rowsFrom
  refine congrArg _ ?_
  funext a; apply Fin.ext
  fin_cases a
  · show 1280 + 1 * (j 0).val = 1280 + (j 0).val; omega
  · show 0 + 1 * (j 1).val = (j 1).val; omega

theorem w_q6 (c : Dev nD) (arg1 : Memref sig .tc .vmem S1x2048x256 .f32) (harg1 : arg1.IsWhole) (arg2 : Memref sig .tc .vmem S256x256 .f32) (harg2 : arg2.IsWhole) (arg3 : Memref sig .tc .vmem S1x256 .f32) (harg3 : arg3.IsWhole) (arg9 : Memref sig .tc .vmem S2048x256 .bf16) (x0 : Vec F S1x2048x256 .f32) (x1 : Vec F S256x256 .f32) (x2 : Vec F S1x256 .f32) : kernelRun0_A.sl.v141 c arg1 harg1 arg2 harg2 arg3 harg3 arg9 x0 x1 x2 = qt x0 x1 x2 1536 (by decide) := by
  unfold kernelRun0_A.sl.v141 kernelRun0_A.sl.HS0_1
  rw [View.readCov_eq_canon', View.canon_unit_zero hz2]
  simp only [View.readAt_eq_ld, harg1.read_unread, harg2.read_unread, harg3.read_unread, View.ld_unit_zero (S := S1x2048x256) hz3, View.ld_unit_zero (S := S256x256) hz2, View.ld_unit_zero (S := S1x256) hz2]
  funext j
  unfold qt rowsFrom
  refine congrArg _ ?_
  funext a; apply Fin.ext
  fin_cases a
  · show 1536 + 1 * (j 0).val = 1536 + (j 0).val; omega
  · show 0 + 1 * (j 1).val = (j 1).val; omega

theorem w_q7 (c : Dev nD) (arg1 : Memref sig .tc .vmem S1x2048x256 .f32) (harg1 : arg1.IsWhole) (arg2 : Memref sig .tc .vmem S256x256 .f32) (harg2 : arg2.IsWhole) (arg3 : Memref sig .tc .vmem S1x256 .f32) (harg3 : arg3.IsWhole) (arg9 : Memref sig .tc .vmem S2048x256 .bf16) (x0 : Vec F S1x2048x256 .f32) (x1 : Vec F S256x256 .f32) (x2 : Vec F S1x256 .f32) : kernelRun0_A.sl.v157 c arg1 harg1 arg2 harg2 arg3 harg3 arg9 x0 x1 x2 = qt x0 x1 x2 1792 (by decide) := by
  unfold kernelRun0_A.sl.v157 kernelRun0_A.sl.HS0_1
  rw [View.readCov_eq_canon', View.canon_unit_zero hz2]
  simp only [View.readAt_eq_ld, harg1.read_unread, harg2.read_unread, harg3.read_unread, View.ld_unit_zero (S := S1x2048x256) hz3, View.ld_unit_zero (S := S256x256) hz2, View.ld_unit_zero (S := S1x256) hz2]
  funext j
  unfold qt rowsFrom
  refine congrArg _ ?_
  funext a; apply Fin.ext
  fin_cases a
  · show 1792 + 1 * (j 0).val = 1792 + (j 0).val; omega
  · show 0 + 1 * (j 1).val = (j 1).val; omega

/-! ## The first walk: the tiles' exponentials and the running normaliser -/

theorem w_v50 (c : Dev nD) (arg13 : Memref sig .tc .vmem S1x2048 .f32) : kernelRun0_A.sl.v50 (F := F) c arg13 = L0 := by
  unfold kernelRun0_A.sl.v50 kernelRun0_A.sl.HS4_1
  rw [View.readCov_unit_zero _ hz2]; rfl

theorem w_v66 (c : Dev nD) (arg1 : Memref sig .tc .vmem S1x2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg9 : Memref sig .tc .vmem S2048x256 .bf16) (arg10 : Memref sig .tc .vmem S2048x256 .bf16) (arg13 : Memref sig .tc .vmem S1x2048 .f32) (x0 : Vec F S1x2048x256 .f32) (x1 : Vec F S256x256 .f32) (x2 : Vec F S1x256 .f32) (x3 : Vec F S256x256 .f32) (x4 : Vec F S1x256 .f32) : kernelRun0_A.sl.v66 c arg1 harg1 arg2 harg2 arg3 harg3 arg4 harg4 arg5 harg5 arg9 arg10 arg13 x0 x1 x2 x3 x4 = L1 x0 x1 x2 x3 x4 := by
  unfold kernelRun0_A.sl.v66 kernelRun0_A.sl.HS4_2
  rw [View.readCov_cons_toLoadRect, w_v43, w_q0, w_v50]; rfl

theorem w_r2 (c : Dev nD) (arg1 : Memref sig .tc .vmem S1x2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg9 : Memref sig .tc .vmem S2048x256 .bf16) (arg10 : Memref sig .tc .vmem S2048x256 .bf16) (x0 : Vec F S1x2048x256 .f32) (x1 : Vec F S256x256 .f32) (x2 : Vec F S1x256 .f32) (x3 : Vec F S256x256 .f32) (x4 : Vec F S1x256 .f32) : kernelRun0_A.sl.r_2 c arg1 harg1 arg2 harg2 arg3 harg3 arg4 harg4 arg5 harg5 arg9 arg10 x0 x1 x2 x3 x4 = Et x0 x1 x2 x3 x4 256 (by decide) := by
  unfold kernelRun0_A.sl.r_2; rw [w_v43, w_q1]; rfl

theorem w_v82 (c : Dev nD) (arg1 : Memref sig .tc .vmem S1x2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg9 : Memref sig .tc .vmem S2048x256 .bf16) (arg10 : Memref sig .tc .vmem S2048x256 .bf16) (arg13 : Memref sig .tc .vmem S1x2048 .f32) (x0 : Vec F S1x2048x256 .f32) (x1 : Vec F S256x256 .f32) (x2 : Vec F S1x256 .f32) (x3 : Vec F S256x256 .f32) (x4 : Vec F S1x256 .f32) : kernelRun0_A.sl.v82 c arg1 harg1 arg2 harg2 arg3 harg3 arg4 harg4 arg5 harg5 arg9 arg10 arg13 x0 x1 x2 x3 x4 = L2 x0 x1 x2 x3 x4 := by
  unfold kernelRun0_A.sl.v82 kernelRun0_A.sl.HS4_3
  rw [View.readCov_cons_toLoadRect, w_r2, w_v66]; rfl

theorem w_v98 (c : Dev nD) (arg1 : Memref sig .tc .vmem S1x2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg9 : Memref sig .tc .vmem S2048x256 .bf16) (arg10 : Memref sig .tc .vmem S2048x256 .bf16) (arg13 : Memref sig .tc .vmem S1x2048 .f32) (x0 : Vec F S1x2048x256 .f32) (x1 : Vec F S256x256 .f32) (x2 : Vec F S1x256 .f32) (x3 : Vec F S256x256 .f32) (x4 : Vec F S1x256 .f32) : kernelRun0_A.sl.v98 c arg1 harg1 arg2 harg2 arg3 harg3 arg4 harg4 arg5 harg5 arg9 arg10 arg13 x0 x1 x2 x3 x4 = L3 x0 x1 x2 x3 x4 := by
  unfold kernelRun0_A.sl.v98 kernelRun0_A.sl.HS4_4
  rw [View.readCov_cons_toLoadRect, w_r1, w_q2, w_v82]; rfl

theorem w_r3 (c : Dev nD) (arg1 : Memref sig .tc .vmem S1x2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg9 : Memref sig .tc .vmem S2048x256 .bf16) (arg10 : Memref sig .tc .vmem S2048x256 .bf16) (x0 : Vec F S1x2048x256 .f32) (x1 : Vec F S256x256 .f32) (x2 : Vec F S1x256 .f32) (x3 : Vec F S256x256 .f32) (x4 : Vec F S1x256 .f32) : kernelRun0_A.sl.r_3 c arg1 harg1 arg2 harg2 arg3 harg3 arg4 harg4 arg5 harg5 arg9 arg10 x0 x1 x2 x3 x4 = Et x0 x1 x2 x3 x4 768 (by decide) := by
  unfold kernelRun0_A.sl.r_3; rw [w_r1, w_q3]; rfl

theorem w_r4 (c : Dev nD) (arg1 : Memref sig .tc .vmem S1x2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg9 : Memref sig .tc .vmem S2048x256 .bf16) (arg10 : Memref sig .tc .vmem S2048x256 .bf16) (x0 : Vec F S1x2048x256 .f32) (x1 : Vec F S256x256 .f32) (x2 : Vec F S1x256 .f32) (x3 : Vec F S256x256 .f32) (x4 : Vec F S1x256 .f32) : kernelRun0_A.sl.r_4 c arg1 harg1 arg2 harg2 arg3 harg3 arg4 harg4 arg5 harg5 arg9 arg10 x0 x1 x2 x3 x4 = k0_pay20 (kT x0 x3 x4) (qt x0 x1 x2 768 (by decide)) := by
  unfold kernelRun0_A.sl.r_4; rw [w_r1, w_q3]

theorem w_v114 (c : Dev nD) (arg1 : Memref sig .tc .vmem S1x2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg9 : Memref sig .tc .vmem S2048x256 .bf16) (arg10 : Memref sig .tc .vmem S2048x256 .bf16) (arg13 : Memref sig .tc .vmem S1x2048 .f32) (x0 : Vec F S1x2048x256 .f32) (x1 : Vec F S256x256 .f32) (x2 : Vec F S1x256 .f32) (x3 : Vec F S256x256 .f32) (x4 : Vec F S1x256 .f32) : kernelRun0_A.sl.v114 c arg1 harg1 arg2 harg2 arg3 harg3 arg4 harg4 arg5 harg5 arg9 arg10 arg13 x0 x1 x2 x3 x4 = L4 x0 x1 x2 x3 x4 := by
  unfold kernelRun0_A.sl.v114 kernelRun0_A.sl.HS4_5
  rw [View.readCov_cons_toLoadRect, w_v98, w_r4]; rfl

theorem w_v130 (c : Dev nD) (arg1 : Memref sig .tc .vmem S1x2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg9 : Memref sig .tc .vmem S2048x256 .bf16) (arg10 : Memref sig .tc .vmem S2048x256 .bf16) (arg13 : Memref sig .tc .vmem S1x2048 .f32) (x0 : Vec F S1x2048x256 .f32) (x1 : Vec F S256x256 .f32) (x2 : Vec F S1x256 .f32) (x3 : Vec F S256x256 .f32) (x4 : Vec F S1x256 .f32) : kernelRun0_A.sl.v130 c arg1 harg1 arg2 harg2 arg3 harg3 arg4 harg4 arg5 harg5 arg9 arg10 arg13 x0 x1 x2 x3 x4 = L5 x0 x1 x2 x3 x4 := by
  unfold kernelRun0_A.sl.v130 kernelRun0_A.sl.HS4_6
  rw [View.readCov_cons_toLoadRect, w_r1, w_q4, w_v114]; rfl

theorem w_r5 (c : Dev nD) (arg1 : Memref sig .tc .vmem S1x2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg9 : Memref sig .tc .vmem S2048x256 .bf16) (arg10 : Memref sig .tc .vmem S2048x256 .bf16) (x0 : Vec F S1x2048x256 .f32) (x1 : Vec F S256x256 .f32) (x2 : Vec F S1x256 .f32) (x3 : Vec F S256x256 .f32) (x4 : Vec F S1x256 .f32) : kernelRun0_A.sl.r_5 c arg1 harg1 arg2 harg2 arg3 harg3 arg4 harg4 arg5 harg5 arg9 arg10 x0 x1 x2 x3 x4 = Et x0 x1 x2 x3 x4 1280 (by decide) := by
  unfold kernelRun0_A.sl.r_5; rw [w_r1, w_q5]; rfl

theorem w_r6 (c : Dev nD) (arg1 : Memref sig .tc .vmem S1x2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg9 : Memref sig .tc .vmem S2048x256 .bf16) (arg10 : Memref sig .tc .vmem S2048x256 .bf16) (arg13 : Memref sig .tc .vmem S1x2048 .f32) (x0 : Vec F S1x2048x256 .f32) (x1 : Vec F S256x256 .f32) (x2 : Vec F S1x256 .f32) (x3 : Vec F S256x256 .f32) (x4 : Vec F S1x256 .f32) : kernelRun0_A.sl.r_6 c arg1 harg1 arg2 harg2 arg3 harg3 arg4 harg4 arg5 harg5 arg9 arg10 arg13 x0 x1 x2 x3 x4 = k0_pay27 (kT x0 x3 x4) (qt x0 x1 x2 1280 (by decide)) (L5 x0 x1 x2 x3 x4) := by
  unfold kernelRun0_A.sl.r_6; rw [w_r1, w_q5, w_v130]

theorem w_v146 (c : Dev nD) (arg1 : Memref sig .tc .vmem S1x2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg9 : Memref sig .tc .vmem S2048x256 .bf16) (arg10 : Memref sig .tc .vmem S2048x256 .bf16) (arg13 : Memref sig .tc .vmem S1x2048 .f32) (x0 : Vec F S1x2048x256 .f32) (x1 : Vec F S256x256 .f32) (x2 : Vec F S1x256 .f32) (x3 : Vec F S256x256 .f32) (x4 : Vec F S1x256 .f32) : kernelRun0_A.sl.v146 c arg1 harg1 arg2 harg2 arg3 harg3 arg4 harg4 arg5 harg5 arg9 arg10 arg13 x0 x1 x2 x3 x4 = L6 x0 x1 x2 x3 x4 := by
  unfold kernelRun0_A.sl.v146 kernelRun0_A.sl.HS4_7
  rw [View.readCov_cons_toLoadRect, w_r6]; rfl

theorem w_v162 (c : Dev nD) (arg1 : Memref sig .tc .vmem S1x2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg9 : Memref sig .tc .vmem S2048x256 .bf16) (arg10 : Memref sig .tc .vmem S2048x256 .bf16) (arg13 : Memref sig .tc .vmem S1x2048 .f32) (x0 : Vec F S1x2048x256 .f32) (x1 : Vec F S256x256 .f32) (x2 : Vec F S1x256 .f32) (x3 : Vec F S256x256 .f32) (x4 : Vec F S1x256 .f32) : kernelRun0_A.sl.v162 c arg1 harg1 arg2 harg2 arg3 harg3 arg4 harg4 arg5 harg5 arg9 arg10 arg13 x0 x1 x2 x3 x4 = L7 x0 x1 x2 x3 x4 := by
  unfold kernelRun0_A.sl.v162 kernelRun0_A.sl.HS4_8
  rw [View.readCov_cons_toLoadRect, w_r1, w_q6, w_v146]; rfl

theorem w_r7 (c : Dev nD) (arg1 : Memref sig .tc .vmem S1x2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg9 : Memref sig .tc .vmem S2048x256 .bf16) (arg10 : Memref sig .tc .vmem S2048x256 .bf16) (x0 : Vec F S1x2048x256 .f32) (x1 : Vec F S256x256 .f32) (x2 : Vec F S1x256 .f32) (x3 : Vec F S256x256 .f32) (x4 : Vec F S1x256 .f32) : kernelRun0_A.sl.r_7 c arg1 harg1 arg2 harg2 arg3 harg3 arg4 harg4 arg5 harg5 arg9 arg10 x0 x1 x2 x3 x4 = Et x0 x1 x2 x3 x4 1792 (by decide) := by
  unfold kernelRun0_A.sl.r_7; rw [w_r1, w_q7]; rfl

theorem w_r8 (c : Dev nD) (arg1 : Memref sig .tc .vmem S1x2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg9 : Memref sig .tc .vmem S2048x256 .bf16) (arg10 : Memref sig .tc .vmem S2048x256 .bf16) (arg13 : Memref sig .tc .vmem S1x2048 .f32) (x0 : Vec F S1x2048x256 .f32) (x1 : Vec F S256x256 .f32) (x2 : Vec F S1x256 .f32) (x3 : Vec F S256x256 .f32) (x4 : Vec F S1x256 .f32) : kernelRun0_A.sl.r_8 c arg1 harg1 arg2 harg2 arg3 harg3 arg4 harg4 arg5 harg5 arg9 arg10 arg13 x0 x1 x2 x3 x4 = k0_pay34 (kT x0 x3 x4) (qt x0 x1 x2 1792 (by decide)) (L7 x0 x1 x2 x3 x4) := by
  unfold kernelRun0_A.sl.r_8; rw [w_r1, w_q7, w_v162]

theorem w_v173 (c : Dev nD) (arg1 : Memref sig .tc .vmem S1x2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg9 : Memref sig .tc .vmem S2048x256 .bf16) (arg10 : Memref sig .tc .vmem S2048x256 .bf16) (arg13 : Memref sig .tc .vmem S1x2048 .f32) (x0 : Vec F S1x2048x256 .f32) (x1 : Vec F S256x256 .f32) (x2 : Vec F S1x256 .f32) (x3 : Vec F S256x256 .f32) (x4 : Vec F S1x256 .f32) : kernelRun0_A.sl.v173 c arg1 harg1 arg2 harg2 arg3 harg3 arg4 harg4 arg5 harg5 arg9 arg10 arg13 x0 x1 x2 x3 x4 = L8 x0 x1 x2 x3 x4 := by
  unfold kernelRun0_A.sl.v173 kernelRun0_A.sl.HS4_9
  rw [View.readCov_cons_toLoadRect, w_r8]; rfl

theorem w_r9 (c : Dev nD) (arg1 : Memref sig .tc .vmem S1x2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg9 : Memref sig .tc .vmem S2048x256 .bf16) (arg10 : Memref sig .tc .vmem S2048x256 .bf16) (arg13 : Memref sig .tc .vmem S1x2048 .f32) (x0 : Vec F S1x2048x256 .f32) (x1 : Vec F S256x256 .f32) (x2 : Vec F S1x256 .f32) (x3 : Vec F S256x256 .f32) (x4 : Vec F S1x256 .f32) : kernelRun0_A.sl.r_9 c arg1 harg1 arg2 harg2 arg3 harg3 arg4 harg4 arg5 harg5 arg9 arg10 arg13 x0 x1 x2 x3 x4 = invL x0 x1 x2 x3 x4 := by
  unfold kernelRun0_A.sl.r_9; rw [w_v173]; rfl

/-! ## The second walk: each tile's exponentials read back from the rows they were kept on -/

theorem w_e0 (c : Dev nD) (arg1 : Memref sig .tc .vmem S1x2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg9 : Memref sig .tc .vmem S2048x256 .bf16) (arg10 : Memref sig .tc .vmem S2048x256 .bf16) (arg12 : Memref sig .tc .vmem S2048x2048 .bf16) (x0 : Vec F S1x2048x256 .f32) (x1 : Vec F S256x256 .f32) (x2 : Vec F S1x256 .f32) (x3 : Vec F S256x256 .f32) (x4 : Vec F S1x256 .f32) : kernelRun0_A.sl.v177 c arg1 harg1 arg2 harg2 arg3 harg3 arg4 harg4 arg5 harg5 arg9 arg10 arg12 x0 x1 x2 x3 x4 = Eb x0 x1 x2 x3 x4 0 (by decide) := by
  unfold kernelRun0_A.sl.v177 kernelRun0_A.sl.HS3_8
  rw [View.readCov_cons_of_rows_disjoint _ 1792 0 (Or.inr (by decide)),
    View.readCov_cons_of_rows_disjoint _ 1536 0 (Or.inr (by decide)),
    View.readCov_cons_of_rows_disjoint _ 1280 0 (Or.inr (by decide)),
    View.readCov_cons_of_rows_disjoint _ 1024 0 (Or.inr (by decide)),
    View.readCov_cons_of_rows_disjoint _ 768 0 (Or.inr (by decide)),
    View.readCov_cons_of_rows_disjoint _ 512 0 (Or.inr (by decide)),
    View.readCov_cons_of_rows_disjoint _ 256 0 (Or.inr (by decide)),
    View.readCov_cons_toLoadRect,
    w_v43,
    w_q0]; rfl

theorem w_e1 (c : Dev nD) (arg1 : Memref sig .tc .vmem S1x2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg9 : Memref sig .tc .vmem S2048x256 .bf16) (arg10 : Memref sig .tc .vmem S2048x256 .bf16) (arg12 : Memref sig .tc .vmem S2048x2048 .bf16) (x0 : Vec F S1x2048x256 .f32) (x1 : Vec F S256x256 .f32) (x2 : Vec F S1x256 .f32) (x3 : Vec F S256x256 .f32) (x4 : Vec F S1x256 .f32) : kernelRun0_A.sl.v186 c arg1 harg1 arg2 harg2 arg3 harg3 arg4 harg4 arg5 harg5 arg9 arg10 arg12 x0 x1 x2 x3 x4 = Eb x0 x1 x2 x3 x4 256 (by decide) := by
  unfold kernelRun0_A.sl.v186 kernelRun0_A.sl.HS3_8
  rw [View.readCov_cons_of_rows_disjoint _ 1792 256 (Or.inr (by decide)),
    View.readCov_cons_of_rows_disjoint _ 1536 256 (Or.inr (by decide)),
    View.readCov_cons_of_rows_disjoint _ 1280 256 (Or.inr (by decide)),
    View.readCov_cons_of_rows_disjoint _ 1024 256 (Or.inr (by decide)),
    View.readCov_cons_of_rows_disjoint _ 768 256 (Or.inr (by decide)),
    View.readCov_cons_of_rows_disjoint _ 512 256 (Or.inr (by decide)),
    View.readCov_cons_toLoadRect,
    w_r2]; rfl

theorem w_e2 (c : Dev nD) (arg1 : Memref sig .tc .vmem S1x2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg9 : Memref sig .tc .vmem S2048x256 .bf16) (arg10 : Memref sig .tc .vmem S2048x256 .bf16) (arg12 : Memref sig .tc .vmem S2048x2048 .bf16) (x0 : Vec F S1x2048x256 .f32) (x1 : Vec F S256x256 .f32) (x2 : Vec F S1x256 .f32) (x3 : Vec F S256x256 .f32) (x4 : Vec F S1x256 .f32) : kernelRun0_A.sl.v195 c arg1 harg1 arg2 harg2 arg3 harg3 arg4 harg4 arg5 harg5 arg9 arg10 arg12 x0 x1 x2 x3 x4 = Eb x0 x1 x2 x3 x4 512 (by decide) := by
  unfold kernelRun0_A.sl.v195 kernelRun0_A.sl.HS3_8
  rw [View.readCov_cons_of_rows_disjoint _ 1792 512 (Or.inr (by decide)),
    View.readCov_cons_of_rows_disjoint _ 1536 512 (Or.inr (by decide)),
    View.readCov_cons_of_rows_disjoint _ 1280 512 (Or.inr (by decide)),
    View.readCov_cons_of_rows_disjoint _ 1024 512 (Or.inr (by decide)),
    View.readCov_cons_of_rows_disjoint _ 768 512 (Or.inr (by decide)),
    View.readCov_cons_toLoadRect,
    w_r1,
    w_q2]; rfl

theorem w_e3 (c : Dev nD) (arg1 : Memref sig .tc .vmem S1x2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg9 : Memref sig .tc .vmem S2048x256 .bf16) (arg10 : Memref sig .tc .vmem S2048x256 .bf16) (arg12 : Memref sig .tc .vmem S2048x2048 .bf16) (x0 : Vec F S1x2048x256 .f32) (x1 : Vec F S256x256 .f32) (x2 : Vec F S1x256 .f32) (x3 : Vec F S256x256 .f32) (x4 : Vec F S1x256 .f32) : kernelRun0_A.sl.v204 c arg1 harg1 arg2 harg2 arg3 harg3 arg4 harg4 arg5 harg5 arg9 arg10 arg12 x0 x1 x2 x3 x4 = Eb x0 x1 x2 x3 x4 768 (by decide) := by
  unfold kernelRun0_A.sl.v204 kernelRun0_A.sl.HS3_8
  rw [View.readCov_cons_of_rows_disjoint _ 1792 768 (Or.inr (by decide)),
    View.readCov_cons_of_rows_disjoint _ 1536 768 (Or.inr (by decide)),
    View.readCov_cons_of_rows_disjoint _ 1280 768 (Or.inr (by decide)),
    View.readCov_cons_of_rows_disjoint _ 1024 768 (Or.inr (by decide)),
    View.readCov_cons_toLoadRect,
    w_r3]; rfl

theorem w_e4 (c : Dev nD) (arg1 : Memref sig .tc .vmem S1x2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg9 : Memref sig .tc .vmem S2048x256 .bf16) (arg10 : Memref sig .tc .vmem S2048x256 .bf16) (arg12 : Memref sig .tc .vmem S2048x2048 .bf16) (x0 : Vec F S1x2048x256 .f32) (x1 : Vec F S256x256 .f32) (x2 : Vec F S1x256 .f32) (x3 : Vec F S256x256 .f32) (x4 : Vec F S1x256 .f32) : kernelRun0_A.sl.v213 c arg1 harg1 arg2 harg2 arg3 harg3 arg4 harg4 arg5 harg5 arg9 arg10 arg12 x0 x1 x2 x3 x4 = Eb x0 x1 x2 x3 x4 1024 (by decide) := by
  unfold kernelRun0_A.sl.v213 kernelRun0_A.sl.HS3_8
  rw [View.readCov_cons_of_rows_disjoint _ 1792 1024 (Or.inr (by decide)),
    View.readCov_cons_of_rows_disjoint _ 1536 1024 (Or.inr (by decide)),
    View.readCov_cons_of_rows_disjoint _ 1280 1024 (Or.inr (by decide)),
    View.readCov_cons_toLoadRect,
    w_r1,
    w_q4]; rfl

theorem w_e5 (c : Dev nD) (arg1 : Memref sig .tc .vmem S1x2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg9 : Memref sig .tc .vmem S2048x256 .bf16) (arg10 : Memref sig .tc .vmem S2048x256 .bf16) (arg12 : Memref sig .tc .vmem S2048x2048 .bf16) (x0 : Vec F S1x2048x256 .f32) (x1 : Vec F S256x256 .f32) (x2 : Vec F S1x256 .f32) (x3 : Vec F S256x256 .f32) (x4 : Vec F S1x256 .f32) : kernelRun0_A.sl.v222 c arg1 harg1 arg2 harg2 arg3 harg3 arg4 harg4 arg5 harg5 arg9 arg10 arg12 x0 x1 x2 x3 x4 = Eb x0 x1 x2 x3 x4 1280 (by decide) := by
  unfold kernelRun0_A.sl.v222 kernelRun0_A.sl.HS3_8
  rw [View.readCov_cons_of_rows_disjoint _ 1792 1280 (Or.inr (by decide)),
    View.readCov_cons_of_rows_disjoint _ 1536 1280 (Or.inr (by decide)),
    View.readCov_cons_toLoadRect,
    w_r5]; rfl

theorem w_e6 (c : Dev nD) (arg1 : Memref sig .tc .vmem S1x2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg9 : Memref sig .tc .vmem S2048x256 .bf16) (arg10 : Memref sig .tc .vmem S2048x256 .bf16) (arg12 : Memref sig .tc .vmem S2048x2048 .bf16) (x0 : Vec F S1x2048x256 .f32) (x1 : Vec F S256x256 .f32) (x2 : Vec F S1x256 .f32) (x3 : Vec F S256x256 .f32) (x4 : Vec F S1x256 .f32) : kernelRun0_A.sl.v231 c arg1 harg1 arg2 harg2 arg3 harg3 arg4 harg4 arg5 harg5 arg9 arg10 arg12 x0 x1 x2 x3 x4 = Eb x0 x1 x2 x3 x4 1536 (by decide) := by
  unfold kernelRun0_A.sl.v231 kernelRun0_A.sl.HS3_8
  rw [View.readCov_cons_of_rows_disjoint _ 1792 1536 (Or.inr (by decide)),
    View.readCov_cons_toLoadRect,
    w_r1,
    w_q6]; rfl

theorem w_e7 (c : Dev nD) (arg1 : Memref sig .tc .vmem S1x2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg9 : Memref sig .tc .vmem S2048x256 .bf16) (arg10 : Memref sig .tc .vmem S2048x256 .bf16) (arg12 : Memref sig .tc .vmem S2048x2048 .bf16) (x0 : Vec F S1x2048x256 .f32) (x1 : Vec F S256x256 .f32) (x2 : Vec F S1x256 .f32) (x3 : Vec F S256x256 .f32) (x4 : Vec F S1x256 .f32) : kernelRun0_A.sl.v240 c arg1 harg1 arg2 harg2 arg3 harg3 arg4 harg4 arg5 harg5 arg9 arg10 arg12 x0 x1 x2 x3 x4 = Eb x0 x1 x2 x3 x4 1792 (by decide) := by
  unfold kernelRun0_A.sl.v240 kernelRun0_A.sl.HS3_8
  rw [View.readCov_cons_toLoadRect,
    w_r7]; rfl

theorem w_r10 (c : Dev nD) (arg1 : Memref sig .tc .vmem S1x2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg9 : Memref sig .tc .vmem S2048x256 .bf16) (arg10 : Memref sig .tc .vmem S2048x256 .bf16) (arg12 : Memref sig .tc .vmem S2048x2048 .bf16) (arg13 : Memref sig .tc .vmem S1x2048 .f32) (x0 : Vec F S1x2048x256 .f32) (x1 : Vec F S256x256 .f32) (x2 : Vec F S1x256 .f32) (x3 : Vec F S256x256 .f32) (x4 : Vec F S1x256 .f32) : kernelRun0_A.sl.r_10 c arg1 harg1 arg2 harg2 arg3 harg3 arg4 harg4 arg5 harg5 arg9 arg10 arg12 arg13 x0 x1 x2 x3 x4 = k0_pay40 (L8 x0 x1 x2 x3 x4) (Eb x0 x1 x2 x3 x4 512 (by decide)) := by
  unfold kernelRun0_A.sl.r_10; rw [w_v173, w_e2]

theorem w_r11 (c : Dev nD) (arg1 : Memref sig .tc .vmem S1x2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg9 : Memref sig .tc .vmem S2048x256 .bf16) (arg10 : Memref sig .tc .vmem S2048x256 .bf16) (arg12 : Memref sig .tc .vmem S2048x2048 .bf16) (x0 : Vec F S1x2048x256 .f32) (x1 : Vec F S256x256 .f32) (x2 : Vec F S1x256 .f32) (x3 : Vec F S256x256 .f32) (x4 : Vec F S1x256 .f32) : kernelRun0_A.sl.r_11 c arg1 harg1 arg2 harg2 arg3 harg3 arg4 harg4 arg5 harg5 arg9 arg10 arg12 x0 x1 x2 x3 x4 = k0_pay45 (Eb x0 x1 x2 x3 x4 1536 (by decide)) := by
  unfold kernelRun0_A.sl.r_11; rw [w_e6]

/-! ## The output block: eight tiles -/

/-- The eight stores into the output block, newest first: tile t on rows 256 t … 256 t + 255. -/
def outPieces (x0 : Vec F S1x2048x256 .f32) (x1 : Vec F S256x256 .f32) (x2 : Vec F S1x256 .f32) (x3 : Vec F S256x256 .f32) (x4 : Vec F S1x256 .f32) (x5 : Vec F S256x256 .f32) (x6 : Vec F S1x256 .f32) : List (View.Piece (Elt F) S1x2048x256 .f32) :=
  [⟨Rect.unit ![0, 1792, 0] ![1, 256, 256] inb_S1x2048x256_S1x256x256_0_1792_0, Ot x0 x1 x2 x3 x4 x5 x6 1792 (by decide)⟩,
   ⟨Rect.unit ![0, 1536, 0] ![1, 256, 256] inb_S1x2048x256_S1x256x256_0_1536_0, Ot x0 x1 x2 x3 x4 x5 x6 1536 (by decide)⟩,
   ⟨Rect.unit ![0, 1280, 0] ![1, 256, 256] inb_S1x2048x256_S1x256x256_0_1280_0, Ot x0 x1 x2 x3 x4 x5 x6 1280 (by decide)⟩,
   ⟨Rect.unit ![0, 1024, 0] ![1, 256, 256] inb_S1x2048x256_S1x256x256_0_1024_0, Ot x0 x1 x2 x3 x4 x5 x6 1024 (by decide)⟩,
   ⟨Rect.unit ![0, 768, 0] ![1, 256, 256] inb_S1x2048x256_S1x256x256_0_768_0, Ot x0 x1 x2 x3 x4 x5 x6 768 (by decide)⟩,
   ⟨Rect.unit ![0, 512, 0] ![1, 256, 256] inb_S1x2048x256_S1x256x256_0_512_0, Ot x0 x1 x2 x3 x4 x5 x6 512 (by decide)⟩,
   ⟨Rect.unit ![0, 256, 0] ![1, 256, 256] inb_S1x2048x256_S1x256x256_0_256_0, Ot x0 x1 x2 x3 x4 x5 x6 256 (by decide)⟩,
   ⟨Rect.unit ![0, 0, 0] ![1, 256, 256] inb_S1x2048x256_S1x256x256_0_0_0, Ot x0 x1 x2 x3 x4 x5 x6 0 (by decide)⟩]

/-- The stores the run found are those eight tiles. -/
theorem run_pieces (c : Dev nD) (i : grid0.Coords) (arg1 : Memref sig .tc .vmem S1x2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S2048x2048 .bf16) (harg12 : arg12.IsWhole) (arg13 : Memref sig .tc .vmem S1x2048 .f32) (harg13 : arg13.IsWhole)
    (x0 : Vec F S1x2048x256 .f32) (x1 : Vec F S256x256 .f32) (x2 : Vec F S1x256 .f32) (x3 : Vec F S256x256 .f32) (x4 : Vec F S1x256 .f32) (x5 : Vec F S256x256 .f32) (x6 : Vec F S1x256 .f32) :
    (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6).1 = outPieces x0 x1 x2 x3 x4 x5 x6 := by
  unfold kernelRun0_A outPieces
  dsimp only
  simp only [w_r9, w_v176, w_v173, w_r10, w_r11, w_e0, w_e1, w_e2, w_e3, w_e4, w_e5, w_e6, w_e7]
  unfold kernelRun0_A.sl.cst_127
  rfl

/-- So every index of the output block lies in one of the eight tiles, -/
theorem outPieces_cover (c : Dev nD) (i : grid0.Coords) (arg1 : Memref sig .tc .vmem S1x2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S2048x2048 .bf16) (harg12 : arg12.IsWhole) (arg13 : Memref sig .tc .vmem S1x2048 .f32) (harg13 : arg13.IsWhole)
    (x0 : Vec F S1x2048x256 .f32) (x1 : Vec F S256x256 .f32) (x2 : Vec F S1x256 .f32) (x3 : Vec F S256x256 .f32) (x4 : Vec F S1x256 .f32) (x5 : Vec F S256x256 .f32) (x6 : Vec F S1x256 .f32) (y : S1x2048x256.Idx) :
    ∃ p ∈ outPieces x0 x1 x2 x3 x4 x5 x6, y ∈ p.1.set := by
  rw [← run_pieces c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6]
  exact cover0_A_7 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 y

/-- and what the body leaves in the output block is the canonical contents of those eight tiles. -/
theorem out_eq_canon (c : Dev nD) (i : grid0.Coords) (arg1 : Memref sig .tc .vmem S1x2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S2048x2048 .bf16) (harg12 : arg12.IsWhole) (arg13 : Memref sig .tc .vmem S1x2048 .f32) (harg13 : arg13.IsWhole)
    (x0 : Vec F S1x2048x256 .f32) (x1 : Vec F S256x256 .f32) (x2 : Vec F S1x256 .f32) (x3 : Vec F S256x256 .f32) (x4 : Vec F S1x256 .f32) (x5 : Vec F S256x256 .f32) (x6 : Vec F S1x256 .f32) :
    out0_A_7 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 = View.canon (outPieces x0 x1 x2 x3 x4 x5 x6) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6), run_pieces]

end Cert.KernelIdeal.Words

end
-- ==== Proof.LibPlainDot.lean ====
/-
  A plain matrix product read at an entry.

  For an [M, K] by [K, N] product with no batch axis, contracting the left operand's columns against the right operand's
  rows, the operand indices at the result entry (p, o) and the contraction coordinate q are (p, q) and (q, o). So at the
  ideal values the product accumulated onto the zero splat is, at (p, o), the sum over q of lhs (p, q) · rhs (q, o).
-/
import Idealize.ShloMosaic.PureOps.Ideal.Laws
import Idealize.ShloMosaic.Lib.ValueIdx

noncomputable section

namespace Cert.LibPlainDot

open Idealize.ShloMosaic Idealize.ShloMosaic.ValueIdx

/-- The left operand's index at result entry (p, o) and contraction coordinate q is (p, q). -/
theorem plain_lhsIdx {M K N : ℕ} (p : Fin M) (o : Fin N) (q : Fin K) :
    (DotDims.plain M K N).lhsIdx (ix2 p o) ((contrEquiv1 (DotDims.plain M K N) K rfl rfl).symm q) = ix2 p q :=
  funext fun a => Fin.ext (by
    match a with
    | ⟨0, _⟩ => rfl
    | ⟨1, _⟩ => exact contrEquiv1_symm_val (DotDims.plain M K N) K rfl rfl q)

/-- The right operand's index at result entry (p, o) and contraction coordinate q is (q, o). -/
theorem plain_rhsIdx {M K N : ℕ} (p : Fin M) (o : Fin N) (q : Fin K) :
    (DotDims.plain M K N).rhsIdx (ix2 p o) ((contrEquiv1 (DotDims.plain M K N) K rfl rfl).symm q) = ix2 q o :=
  funext fun a => Fin.ext (by
    match a with
    | ⟨0, _⟩ => exact contrEquiv1_symm_val (DotDims.plain M K N) K rfl rfl q
    | ⟨1, _⟩ => rfl)

/-- A plain product onto the zero splat, read at (p, o): the sum over the contraction coordinate. -/
theorem plain_matmul_zero_apply {M K N : ℕ} {φ₁ φ₂ : FTy} (prec : Option ContractPrecision)
    (lhs : FVec Ideal ⟨2, ![M, K]⟩ φ₁) (rhs : FVec Ideal ⟨2, ![K, N]⟩ φ₂) (p : Fin M) (o : Fin N) :
    FloatOps.matmul (DotDims.plain M K N) prec lhs rhs (constant ⟨2, ![M, N]⟩ .f32 0x00000000#32) (ix2 p o)
      = ∑ q : Fin K, lhs (ix2 p q) * rhs (ix2 q o) := by
  rw [Ideal.matmul_constant_zero_apply, ← Equiv.sum_comp (contrEquiv1 (DotDims.plain M K N) K rfl rfl).symm]
  refine Finset.sum_congr rfl fun q _ => ?_
  rw [plain_lhsIdx, plain_rhsIdx]

end Cert.LibPlainDot

end
-- ==== Proof.LibPaddedBlockSum.lean ====
/-
  Two facts about finite sums in a commutative monoid (the extended reals with their addition among them), as a
  kernel that pads its work list and deals it out in equal blocks needs them.

  * Padding: if a summand vanishes at every index from `E` on, its sum over `E' ≥ E` indices is its sum over the first `E`.
  * Blocks: a sum over `W * C` indices is the sum over the `W` blocks of the sums over each block's `C` indices,
    the index of entry `c` of block `w` being `c + C * w`.
  Together: a segment sum (the sum of the terms whose key is a given segment) over a padded, block-dealt list is the
  segment sum over the original list, provided the padding's terms are zero.
-/
import Mathlib.Algebra.BigOperators.Fin
import Mathlib.Logic.Equiv.Fin.Basic

namespace Cert.Lib.PaddedBlockSum

variable {M : Type} [AddCommMonoid M]

/-- A summand that vanishes from index `E` on: the sum over the longer range is the sum over the first `E` indices. -/
theorem sum_padded {E E' : ℕ} (hE : E ≤ E') (g : Fin E' → M) (hz : ∀ e : Fin E', E ≤ e.val → g e = 0) :
    ∑ e : Fin E', g e = ∑ e : Fin E, g (e.castLE hE) := by
  have h1 : ∑ e : Fin E, g (e.castLE hE) = ∑ e' ∈ Finset.univ.map (Fin.castLEEmb hE), g e' := by
    rw [Finset.sum_map]; rfl
  rw [h1]
  refine (Finset.sum_subset (Finset.subset_univ _) fun e _ hn => hz e ?_).symm
  by_contra hlt
  exact hn (Finset.mem_map.mpr ⟨⟨e.val, Nat.lt_of_not_le hlt⟩, Finset.mem_univ _, Fin.ext rfl⟩)

/-- A sum over `W * C` indices, block by block. -/
theorem sum_blocks {W C : ℕ} (g : Fin (W * C) → M) :
    ∑ e : Fin (W * C), g e = ∑ w : Fin W, ∑ c : Fin C, g (finProdFinEquiv (w, c)) := by
  rw [← Fintype.sum_prod_type', ← finProdFinEquiv.sum_comp]

/-- The flat index of entry `c` of block `w`. -/
theorem block_index_val {W C : ℕ} (w : Fin W) (c : Fin C) : (finProdFinEquiv (w, c)).val = c.val + C * w.val := rfl

/-- **A segment sum over a padded, block-dealt list.** `key'` and `t'` are the padded keys and terms over `W * C` indices,
    agreeing with `key` and `t` on the first `E` and with the terms zero beyond: segment `i`'s sum taken block by block over
    the padded list is its sum over the original list. -/
theorem segment_sum_padded_blocks {I : Type} [DecidableEq I] {E W C : ℕ} (hE : E ≤ W * C)
    (key : Fin E → I) (t : Fin E → M) (key' : Fin (W * C) → I) (t' : Fin (W * C) → M)
    (hkey : ∀ e : Fin E, key' (e.castLE hE) = key e) (ht : ∀ e : Fin E, t' (e.castLE hE) = t e)
    (hz : ∀ e : Fin (W * C), E ≤ e.val → t' e = 0) (i : I) :
    ∑ w : Fin W, ∑ c : Fin C, (if key' (finProdFinEquiv (w, c)) = i then t' (finProdFinEquiv (w, c)) else 0)
      = ∑ e : Fin E, if key e = i then t e else 0 := by
  rw [← sum_blocks (fun e => if key' e = i then t' e else 0),
    sum_padded hE (fun e => if key' e = i then t' e else 0) (fun e he => by rw [hz e he, ite_self])]
  exact Finset.sum_congr rfl fun e _ => by rw [hkey e, ht e]

end Cert.Lib.PaddedBlockSum
-- ==== Proof.KernelTile.lean ====
/-
  The kernel body's uniform functions read at an entry, at the ideal values.

  On one batch's block x : [1, 2048, 256], with a transposed weight w : [256, 256] and a bias row b : [1, 256], a layer is
  P (s, o) = (sum over h of x(0, s, h) * w(h, o)) + b(0, o); a matrix kept rounded is the matrix. A tile's exponentials at
  (r, k) are exp ((sum over h of Q(o + r, h) * K(k, h)) * 2⁻⁸) — the product with the transposed keys read back through the
  transposition. One step of the running normaliser adds the tile's column sums; after the eight tiles the row is, at key
  k, the sum over all 2048 queries (a sum over 8 * 256 indices taken block by block). An output tile at (0, r, c) is the sum
  over the keys of (exponential * 1 / normaliser) * value.
-/
import proofs.«160842_j22067541967525_2_alg».proof.Proof.KernelWords
import proofs.«160842_j22067541967525_2_alg».proof.Proof.LibPlainDot
import proofs.«160842_j22067541967525_2_alg».proof.Proof.LibPaddedBlockSum
import Idealize.ShloMosaic.Lib.ValueLayout
import Idealize.ShloMosaic.PureOps.Ideal.Laws

set_option maxRecDepth 16384

noncomputable section

namespace Cert.KernelIdeal.Tile

open Cert.KernelIdeal Cert.KernelIdeal.Gen Cert.KernelIdeal.Words Idealize.ShloMosaic Idealize.ShloMosaic.ValueIdx
open Cert.LibPlainDot

/-- A linear layer on one batch's block: row s of x times column o of the (already transposed) weight, plus the bias. -/
def P (x0 : Vec Ideal S1x2048x256 .f32) (w : Vec Ideal S256x256 .f32) (b : Vec Ideal S1x256 .f32) (s : Fin 2048) (o : Fin 256) : EReal :=
  (∑ h : Fin 256, x0 (ix3 (0 : Fin 1) s h) * w (ix2 h o)) + b (ix2 (0 : Fin 1) o)

theorem pay4_apply (x0 : Vec Ideal S1x2048x256 .f32) (w : Vec Ideal S256x256 .f32) (b : Vec Ideal S1x256 .f32) (s : Fin 2048) (o : Fin 256) :
    k0_pay4 (F := Ideal) x0 w b (ix2 s o) = P x0 w b s o := by
  show FloatOps.matmul (DotDims.plain 2048 256 256) none (k0_pay3 (F := Ideal) x0)
        (truncf .bf16 (shapeCast S256x256 w shapeCasts_S256x256_S256x256) bitsLt_bf16_f32)
        (constant ⟨2, ![2048, 256]⟩ .f32 0x00000000#32) (ix2 s o)
      + broadcastTo S2048x256 (shapeCast S1x256 b shapeCasts_S1x256_S1x256) broadcasts_S1x256_S2048x256 (ix2 s o) = _
  rw [plain_matmul_zero_apply, ValueIdx.broadcastTo_1b_ab_apply, shapeCast_self, shapeCast_self]
  unfold P
  refine congrArg₂ (· + ·) (Finset.sum_congr rfl fun h _ => ?_) rfl
  show shapeCast S2048x256 x0 shapeCasts_S1x2048x256_S2048x256 (ix2 s h) * w (ix2 h o) = _
  rw [ValueIdx.shapeCast_1ab_ab_apply]

/-- Each of the three kept matrices is its layer: keeping a value rounded changes nothing at the ideal values. -/
theorem Qm_apply (x0 : Vec Ideal S1x2048x256 .f32) (w : Vec Ideal S256x256 .f32) (b : Vec Ideal S1x256 .f32) (s : Fin 2048) (o : Fin 256) :
    Qm (F := Ideal) x0 w b (ix2 s o) = P x0 w b s o := by
  show shapeCast S2048x256 (truncf .bf16 (k0_pay4 (F := Ideal) x0 w b) bitsLt_bf16_f32) shapeCasts_S2048x256_S2048x256 (ix2 s o) = _
  rw [shapeCast_self]; exact pay4_apply x0 w b s o

theorem Km_apply (x0 : Vec Ideal S1x2048x256 .f32) (w : Vec Ideal S256x256 .f32) (b : Vec Ideal S1x256 .f32) (s : Fin 2048) (o : Fin 256) :
    Km (F := Ideal) x0 w b (ix2 s o) = P x0 w b s o := by
  show shapeCast S2048x256 (truncf .bf16 (k0_pay4 (F := Ideal) x0 w b) bitsLt_bf16_f32) shapeCasts_S2048x256_S2048x256 (ix2 s o) = _
  rw [shapeCast_self]; exact pay4_apply x0 w b s o

theorem Vm_apply (x0 : Vec Ideal S1x2048x256 .f32) (w : Vec Ideal S256x256 .f32) (b : Vec Ideal S1x256 .f32) (s : Fin 2048) (o : Fin 256) :
    Vm (F := Ideal) x0 w b (ix2 s o) = P x0 w b s o := by
  show shapeCast S2048x256 (truncf .bf16 (k0_pay4 (F := Ideal) x0 w b) bitsLt_bf16_f32) shapeCasts_S2048x256_S2048x256 (ix2 s o) = _
  rw [shapeCast_self]; exact pay4_apply x0 w b s o

/-- The exponential of the scaled score of block-row q against key k. -/
def bE (x0 : Vec Ideal S1x2048x256 .f32) (x1 : Vec Ideal S256x256 .f32) (x2 : Vec Ideal S1x256 .f32) (x3 : Vec Ideal S256x256 .f32) (x4 : Vec Ideal S1x256 .f32)
    (q k : Fin 2048) : EReal :=
  Ideal.exp ((∑ h : Fin 256, P x0 x1 x2 q h * P x0 x3 x4 k h) * Ideal.ofBits .f32 0x3B800000#32)

/-- A tile's exponentials: entry (r, k) of the tile at row o is that of query o + r. -/
theorem Et_apply (x0 : Vec Ideal S1x2048x256 .f32) (x1 : Vec Ideal S256x256 .f32) (x2 : Vec Ideal S1x256 .f32) (x3 : Vec Ideal S256x256 .f32) (x4 : Vec Ideal S1x256 .f32)
    (o : Nat) (h : o + 256 ≤ 2048) (r : Fin 256) (k : Fin 2048) :
    Et (F := Ideal) x0 x1 x2 x3 x4 o h (ix2 r k) = bE x0 x1 x2 x3 x4 ⟨o + r.val, by omega⟩ k := by
  show Ideal.exp (FloatOps.matmul (DotDims.plain 256 256 2048) none (qt (F := Ideal) x0 x1 x2 o h) (kT (F := Ideal) x0 x3 x4)
        (constant ⟨2, ![256, 2048]⟩ .f32 0x00000000#32) (ix2 r k) * Ideal.ofBits .f32 0x3B800000#32) = _
  rw [plain_matmul_zero_apply]
  unfold bE
  congr 2
  refine Finset.sum_congr rfl fun hh _ => ?_
  congr 1
  · exact Qm_apply x0 x1 x2 ⟨o + r.val, by omega⟩ hh
  · show transpose S256x2048 [1, 0] (Km (F := Ideal) x0 x3 x4) transposes_S2048x256_p1_0_S256x2048 (ix2 hh k) = _
    rw [transpose_ix2_apply]; exact Km_apply x0 x3 x4 k hh

/-- Kept rounded, the same. -/
theorem Eb_apply (x0 : Vec Ideal S1x2048x256 .f32) (x1 : Vec Ideal S256x256 .f32) (x2 : Vec Ideal S1x256 .f32) (x3 : Vec Ideal S256x256 .f32) (x4 : Vec Ideal S1x256 .f32)
    (o : Nat) (h : o + 256 ≤ 2048) (r : Fin 256) (k : Fin 2048) :
    Eb (F := Ideal) x0 x1 x2 x3 x4 o h (ix2 r k) = bE x0 x1 x2 x3 x4 ⟨o + r.val, by omega⟩ k := by
  show shapeCast S256x2048 (truncf .bf16 (Et (F := Ideal) x0 x1 x2 x3 x4 o h) bitsLt_bf16_f32) shapeCasts_S256x2048_S256x2048 (ix2 r k) = _
  rw [shapeCast_self]; exact Et_apply x0 x1 x2 x3 x4 o h r k

/-- One step of the running normaliser: the row so far plus the tile's column sums. -/
theorem pay14_apply (e : FVec Ideal S256x2048 .f32) (acc : Vec Ideal S1x2048 .f32) (k : Fin 2048) :
    k0_pay14 (F := Ideal) e acc (ix2 (0 : Fin 1) k) = acc (ix2 (0 : Fin 1) k) + ∑ r : Fin 256, e (ix2 r k) := by
  show shapeCast S1x2048 (addf acc (shapeCast S1x2048 (multiReduction .add [0] S2048 e 0x00000000#32 reduces_S256x2048_S2048 (.inl rfl) rfl) shapeCasts_S2048_S1x2048)) shapeCasts_S1x2048_S1x2048 (ix2 (0 : Fin 1) k) = _
  rw [shapeCast_self]
  show acc (ix2 (0 : Fin 1) k) + shapeCast S1x2048 (multiReduction .add [0] S2048 e 0x00000000#32 reduces_S256x2048_S2048 (.inl rfl) rfl) shapeCasts_S2048_S1x2048 (ix2 (0 : Fin 1) k) = _
  rw [ValueIdx.shapeCast_a_1a_apply]
  congr 1
  refine (Ideal.multiReduction_add_single e 0x00000000#32 reduces_S256x2048_S2048 (.inl rfl) rfl (ix1 k)).trans ?_
  refine Finset.sum_congr rfl fun r _ => congrArg e ?_
  funext a; apply Fin.ext
  match a with
  | ⟨0, _⟩ => rfl
  | ⟨1, _⟩ => rfl

/-- The zero row. -/
theorem L0_apply (k : Fin 2048) : L0 (F := Ideal) (ix2 (0 : Fin 1) k) = 0 := by
  show shapeCast S1x2048 (broadcast S1x2048 (Scalar.ofBits (F := Ideal) .f32 0x00000000#32)) shapeCasts_S1x2048_S1x2048 (ix2 (0 : Fin 1) k) = _
  rw [shapeCast_self]
  exact Ideal.ofBits_zero_f32

/-- The reciprocal row. -/
theorem pay37_apply (l : Vec Ideal S1x2048 .f32) (k : Fin 2048) :
    k0_pay37 (F := Ideal) l (ix2 (0 : Fin 1) k) = Ideal.div (Ideal.ofBits .f32 0x3F800000#32) (l (ix2 (0 : Fin 1) k)) := rfl

/-- An output tile: row r, column c is the sum over the keys of the kept exponential, scaled by the key's reciprocal, times the value. -/
theorem pay42_apply (il : FVec Ideal S1x2048 .f32) (v : Vec Ideal S2048x256 .bf16) (eb : Vec Ideal S256x2048 .bf16) (r : Fin 256) (c : Fin 256) :
    k0_pay42 (F := Ideal) il v eb (ix3 (0 : Fin 1) r c) = ∑ k : Fin 2048, (eb (ix2 r k) * il (ix2 (0 : Fin 1) k)) * v (ix2 k c) := by
  show shapeCast S1x256x256 (FloatOps.matmul (DotDims.plain 256 2048 256) none
        (truncf .bf16 (mulf (extf .f32 eb bitsLt_bf16_f32) (broadcastTo S256x2048 il broadcasts_S1x2048_S256x2048)) bitsLt_bf16_f32) v
        (constant ⟨2, ![256, 256]⟩ .f32 0x00000000#32)) shapeCasts_S256x256_S1x256x256 (ix3 (0 : Fin 1) r c) = _
  rw [ValueIdx.shapeCast_ab_1ab_apply, plain_matmul_zero_apply]
  refine Finset.sum_congr rfl fun k _ => ?_
  congr 1
  show eb (ix2 r k) * broadcastTo S256x2048 il broadcasts_S1x2048_S256x2048 (ix2 r k) = _
  rw [ValueIdx.broadcastTo_1b_ab_apply]

/-! ## The running normaliser after the eight tiles -/

/-- The normaliser of key k over this batch: the exponentials summed over all 2048 queries. -/
def bL (x0 : Vec Ideal S1x2048x256 .f32) (x1 : Vec Ideal S256x256 .f32) (x2 : Vec Ideal S1x256 .f32) (x3 : Vec Ideal S256x256 .f32) (x4 : Vec Ideal S1x256 .f32) (k : Fin 2048) : EReal := ∑ q : Fin 2048, bE x0 x1 x2 x3 x4 q k

/-- The column sums of the tile at row o. -/
def tileSum (x0 : Vec Ideal S1x2048x256 .f32) (x1 : Vec Ideal S256x256 .f32) (x2 : Vec Ideal S1x256 .f32) (x3 : Vec Ideal S256x256 .f32) (x4 : Vec Ideal S1x256 .f32) (o : Nat) (h : o + 256 ≤ 2048) (k : Fin 2048) : EReal :=
  ∑ r : Fin 256, bE x0 x1 x2 x3 x4 ⟨o + r.val, by omega⟩ k

theorem step (x0 : Vec Ideal S1x2048x256 .f32) (x1 : Vec Ideal S256x256 .f32) (x2 : Vec Ideal S1x256 .f32) (x3 : Vec Ideal S256x256 .f32) (x4 : Vec Ideal S1x256 .f32) (o : Nat) (h : o + 256 ≤ 2048) (acc : Vec Ideal S1x2048 .f32) (k : Fin 2048) :
    k0_pay14 (F := Ideal) (Et x0 x1 x2 x3 x4 o h) acc (ix2 (0 : Fin 1) k) = acc (ix2 (0 : Fin 1) k) + tileSum x0 x1 x2 x3 x4 o h k := by
  rw [pay14_apply]; unfold tileSum
  exact congrArg _ (Finset.sum_congr rfl fun r _ => Et_apply x0 x1 x2 x3 x4 o h r k)

/-- After the eighth tile the row holds, at key k, the sum over every query: the eight tiles' column sums are the sum over
    all 2048 rows taken in eight blocks of 256, and adding them one after the other to zero is their sum. -/
theorem L8_apply (x0 : Vec Ideal S1x2048x256 .f32) (x1 : Vec Ideal S256x256 .f32) (x2 : Vec Ideal S1x256 .f32) (x3 : Vec Ideal S256x256 .f32) (x4 : Vec Ideal S1x256 .f32) (k : Fin 2048) : L8 (F := Ideal) x0 x1 x2 x3 x4 (ix2 (0 : Fin 1) k) = bL x0 x1 x2 x3 x4 k := by
  unfold L8 L7 L6 L5 L4 L3 L2 L1
  rw [step, step, step, step, step, step, step, step, L0_apply, zero_add]
  unfold bL tileSum
  rw [show (∑ q : Fin 2048, bE x0 x1 x2 x3 x4 q k) = ∑ e : Fin (8 * 256), bE x0 x1 x2 x3 x4 e k from rfl,
    Cert.Lib.PaddedBlockSum.sum_blocks, Fin.sum_univ_eight]
  have hb : ∀ (w : Fin 8) (o : Nat) (ho : o + 256 ≤ 2048), o = 256 * w.val →
      (∑ c : Fin 256, bE x0 x1 x2 x3 x4 (finProdFinEquiv (w, c)) k) = ∑ r : Fin 256, bE x0 x1 x2 x3 x4 ⟨o + r.val, by omega⟩ k := by
    intro w o ho e
    refine Finset.sum_congr rfl fun r _ => ?_
    congr 1
    apply Fin.ext
    show r.val + 256 * w.val = o + r.val
    omega
  rw [hb 0 0 (by decide) rfl, hb 1 256 (by decide) rfl, hb 2 512 (by decide) rfl, hb 3 768 (by decide) rfl,
    hb 4 1024 (by decide) rfl, hb 5 1280 (by decide) rfl, hb 6 1536 (by decide) rfl, hb 7 1792 (by decide) rfl]

theorem invL_apply (x0 : Vec Ideal S1x2048x256 .f32) (x1 : Vec Ideal S256x256 .f32) (x2 : Vec Ideal S1x256 .f32) (x3 : Vec Ideal S256x256 .f32) (x4 : Vec Ideal S1x256 .f32) (k : Fin 2048) :
    invL (F := Ideal) x0 x1 x2 x3 x4 (ix2 (0 : Fin 1) k) = Ideal.div (Ideal.ofBits .f32 0x3F800000#32) (bL x0 x1 x2 x3 x4 k) := by
  unfold invL; rw [pay37_apply, L8_apply]

/-! ## The output block -/

/-- The block's attention: entry (0, q, c). -/
def bOut (x0 : Vec Ideal S1x2048x256 .f32) (x1 : Vec Ideal S256x256 .f32) (x2 : Vec Ideal S1x256 .f32) (x3 : Vec Ideal S256x256 .f32) (x4 : Vec Ideal S1x256 .f32) (x5 : Vec Ideal S256x256 .f32) (x6 : Vec Ideal S1x256 .f32) : Vec Ideal S1x2048x256 .f32 := fun i =>
  ∑ k : Fin 2048, (bE x0 x1 x2 x3 x4 (i 1) k * Ideal.div (Ideal.ofBits .f32 0x3F800000#32) (bL x0 x1 x2 x3 x4 k)) * P x0 x5 x6 k (i 2)

/-- The output tile at row o, at its local entry (0, r, c), is the block's attention at query o + r. -/
theorem Ot_apply (x0 : Vec Ideal S1x2048x256 .f32) (x1 : Vec Ideal S256x256 .f32) (x2 : Vec Ideal S1x256 .f32) (x3 : Vec Ideal S256x256 .f32) (x4 : Vec Ideal S1x256 .f32) (x5 : Vec Ideal S256x256 .f32) (x6 : Vec Ideal S1x256 .f32) (o : Nat) (h : o + 256 ≤ 2048) (r : Fin 256) (c : Fin 256) :
    Ot (F := Ideal) x0 x1 x2 x3 x4 x5 x6 o h (ix3 (0 : Fin 1) r c)
      = bOut x0 x1 x2 x3 x4 x5 x6 (ix3 (0 : Fin 1) (⟨o + r.val, by omega⟩ : Fin 2048) c) := by
  unfold Ot; rw [pay42_apply]
  unfold bOut
  refine Finset.sum_congr rfl fun k _ => ?_
  rw [Eb_apply, invL_apply, Vm_apply]

end Cert.KernelIdeal.Tile

end
-- ==== Proof.KernelBlock.lean ====
/-
  What the body leaves in the output block, as one function of the seven input blocks.

  The eight stored tiles tile the block's 2048 rows; tile t's local entry (0, r, c) is the block's entry (0, 256 t + r, c),
  and there the tile holds the block's attention at query 256 t + r. So the output block is that one function everywhere.
-/
import proofs.«160842_j22067541967525_2_alg».proof.Proof.KernelTile

set_option maxRecDepth 16384

noncomputable section

namespace Cert.KernelIdeal.Block

open Cert.KernelIdeal Cert.KernelIdeal.Gen Cert.KernelIdeal.Words Cert.KernelIdeal.Tile Idealize.ShloMosaic Idealize.ShloMosaic.ValueIdx

/-- The tile at row o, at its local index, is the block's attention at the index the tile's rectangle sends it to. -/
theorem piece_agree (x0 : Vec Ideal S1x2048x256 .f32) (x1 : Vec Ideal S256x256 .f32) (x2 : Vec Ideal S1x256 .f32) (x3 : Vec Ideal S256x256 .f32) (x4 : Vec Ideal S1x256 .f32) (x5 : Vec Ideal S256x256 .f32) (x6 : Vec Ideal S1x256 .f32) (o : Nat) (h : o + 256 ≤ 2048)
    (inb : ∀ a, (![0, o, 0] : Fin 3 → Nat) a + (![1, 256, 256] : Fin 3 → Nat) a ≤ S1x2048x256.size a)
    (x : (⟨3, ![1, 256, 256]⟩ : Shape).Idx) :
    Ot (F := Ideal) x0 x1 x2 x3 x4 x5 x6 o h x
      = bOut x0 x1 x2 x3 x4 x5 x6 ((Rect.unit (s := S1x2048x256) ![0, o, 0] ![1, 256, 256] inb).emb x) := by
  obtain ⟨u, r, c, rfl⟩ : ∃ (u : Fin 1) (r : Fin 256) (c : Fin 256), x = ix3 u r c := ⟨x 0, x 1, x 2, eq_ix3 x⟩
  obtain rfl : u = 0 := Subsingleton.elim _ _
  rw [Ot_apply]
  refine congrArg _ ?_
  funext a; apply Fin.ext
  match a with
  | ⟨0, _⟩ => show 0 = 0 + 1 * 0; rfl
  | ⟨1, _⟩ => show o + r.val = o + 1 * r.val; omega
  | ⟨2, _⟩ => show c.val = 0 + 1 * c.val; omega

/-- The output block the body leaves is the block's attention. -/
theorem out_eq_bOut (c : Dev nD) (i : grid0.Coords) (arg1 : Memref sig .tc .vmem S1x2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S2048x2048 .bf16) (harg12 : arg12.IsWhole) (arg13 : Memref sig .tc .vmem S1x2048 .f32) (harg13 : arg13.IsWhole)
    (x0 : Vec Ideal S1x2048x256 .f32) (x1 : Vec Ideal S256x256 .f32) (x2 : Vec Ideal S1x256 .f32) (x3 : Vec Ideal S256x256 .f32) (x4 : Vec Ideal S1x256 .f32) (x5 : Vec Ideal S256x256 .f32) (x6 : Vec Ideal S1x256 .f32) :
    out0_A_7 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 = bOut x0 x1 x2 x3 x4 x5 x6 := by
  funext y
  rw [out_eq_canon]
  refine View.canon_apply_of_pieces (bOut x0 x1 x2 x3 x4 x5 x6) _ ?_ y (outPieces_cover c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 y)
  intro p hp x
  simp only [outPieces, List.mem_cons, List.not_mem_nil, or_false] at hp
  rcases hp with rfl | rfl | rfl | rfl | rfl | rfl | rfl | rfl
  · exact piece_agree x0 x1 x2 x3 x4 x5 x6 1792 (by decide) inb_S1x2048x256_S1x256x256_0_1792_0 x
  · exact piece_agree x0 x1 x2 x3 x4 x5 x6 1536 (by decide) inb_S1x2048x256_S1x256x256_0_1536_0 x
  · exact piece_agree x0 x1 x2 x3 x4 x5 x6 1280 (by decide) inb_S1x2048x256_S1x256x256_0_1280_0 x
  · exact piece_agree x0 x1 x2 x3 x4 x5 x6 1024 (by decide) inb_S1x2048x256_S1x256x256_0_1024_0 x
  · exact piece_agree x0 x1 x2 x3 x4 x5 x6 768 (by decide) inb_S1x2048x256_S1x256x256_0_768_0 x
  · exact piece_agree x0 x1 x2 x3 x4 x5 x6 512 (by decide) inb_S1x2048x256_S1x256x256_0_512_0 x
  · exact piece_agree x0 x1 x2 x3 x4 x5 x6 256 (by decide) inb_S1x2048x256_S1x256x256_0_256_0 x
  · exact piece_agree x0 x1 x2 x3 x4 x5 x6 0 (by decide) inb_S1x2048x256_S1x256x256_0_0_0 x

end Cert.KernelIdeal.Block

end
-- ==== Proof.AttnSpec.lean ====
/-
  Attention whose softmax runs over the QUERY axis, as one function of the seven argument arrays, over the
  extended reals.

  With x : [8, 2048, 256] and, for each of the three layers, a weight W : [256, 256] and a bias b : [256]:
    proj x W b (n, s, o)   = (sum over h of x(n, s, h) * W(o, h)) + b(o)            (a linear layer, y = x Wᵀ + b)
    score (n, q, k)        = (sum over h of Q(n, q, h) * K(n, k, h)) * 2⁻⁸          (Q, K the first two layers)
    colSum (n, k)          = sum over ALL queries q of exp (score (n, q, k))        (one normaliser per KEY k)
    attn (n, q, o)         = sum over k of (exp (score (n, q, k)) * (1 / colSum (n, k))) * V(n, k, o)
  The scale 2⁻⁸ and the numerator 1 are kept as the float words that denote them; no maximum is subtracted
  before the exponential. This module imports no program.
-/
import Idealize.ShloMosaic.PureOps.Ideal
import Idealize.ShloMosaic.Lib.ValueIdx

noncomputable section

namespace Cert.AttnSpec

open Idealize.ShloMosaic Idealize.ShloMosaic.ValueIdx

/-- The activations' shape, a weight's and a bias's. -/
abbrev SX : Shape := ⟨3, ![8, 2048, 256]⟩
abbrev SW : Shape := ⟨2, ![256, 256]⟩
abbrev SB : Shape := ⟨1, ![256]⟩

/-- The score's scale 2⁻⁸ = 1/256, as the float word that denotes it. -/
abbrev invH : EReal := Ideal.ofBits .f32 0x3B800000#32
/-- The numerator 1 of the reciprocal, as the float word that denotes it. -/
abbrev one : EReal := Ideal.ofBits .f32 0x3F800000#32

/-- Every entry of the array is a real number (neither infinity). -/
def IsReal {S : Shape} (x : S.Idx → EReal) : Prop := ∀ i, ∃ r : ℝ, x i = (r : EReal)

/-- A linear layer y = x Wᵀ + b, at batch `n`, row `s`, output feature `o`. -/
def proj (x : SX.Idx → EReal) (W : SW.Idx → EReal) (b : SB.Idx → EReal) (n : Fin 8) (s : Fin 2048) (o : Fin 256) : EReal :=
  (∑ h : Fin 256, x (ix3 n s h) * W (ix2 o h)) + b (ix1 o)

/-- The scaled score of query `q` against key `k` in batch `n`. -/
def score (x : SX.Idx → EReal) (Wq : SW.Idx → EReal) (bq : SB.Idx → EReal) (Wk : SW.Idx → EReal) (bk : SB.Idx → EReal)
    (n : Fin 8) (q k : Fin 2048) : EReal :=
  (∑ h : Fin 256, proj x Wq bq n q h * proj x Wk bk n k h) * invH

/-- Its exponential. -/
def expScore (x : SX.Idx → EReal) (Wq : SW.Idx → EReal) (bq : SB.Idx → EReal) (Wk : SW.Idx → EReal) (bk : SB.Idx → EReal)
    (n : Fin 8) (q k : Fin 2048) : EReal :=
  Ideal.exp (score x Wq bq Wk bk n q k)

/-- The normaliser of key `k`: the exponentials summed over every query. -/
def colSum (x : SX.Idx → EReal) (Wq : SW.Idx → EReal) (bq : SB.Idx → EReal) (Wk : SW.Idx → EReal) (bk : SB.Idx → EReal)
    (n : Fin 8) (k : Fin 2048) : EReal :=
  ∑ q : Fin 2048, expScore x Wq bq Wk bk n q k

/-- The result array. -/
def attn (x : SX.Idx → EReal) (Wq : SW.Idx → EReal) (bq : SB.Idx → EReal) (Wk : SW.Idx → EReal) (bk : SB.Idx → EReal)
    (Wv : SW.Idx → EReal) (bv : SB.Idx → EReal) : SX.Idx → EReal := fun i =>
  ∑ k : Fin 2048, (expScore x Wq bq Wk bk (i 0) (i 1) k * Ideal.div one (colSum x Wq bq Wk bk (i 0) k))
    * proj x Wv bv (i 0) k (i 2)

end Cert.AttnSpec

end
-- ==== Proof.KernelArray.lean ====
/-
  The result array after the kernel's run, as the specification of the argument arrays.

  Before the region the host transposes the three weights and re-lays the three biases as rows; the region stages those six
  arrays whole at every grid point and, at point t, batch t of the activations. Read at coordinates, the staged blocks are
  the arguments: x(0, s, h) is the activations at (t, s, h), a staged weight at (h, o) is the weight at (o, h), a staged bias
  at (0, o) is the bias at o. So the block's attention on the staged blocks is the specification's attention of the arguments
  at batch t; point t writes it back as block t of the result; and the eight blocks are the eight batches, which cover the
  array.
-/
import proofs.«160842_j22067541967525_2_alg».proof.Proof.KernelBlock
import proofs.«160842_j22067541967525_2_alg».proof.Proof.Gen.KernelIdeal.Value
import proofs.«160842_j22067541967525_2_alg».proof.Proof.AttnSpec
import Idealize.ShloMosaic.Lib.StableHlo.Run

set_option maxRecDepth 16384

noncomputable section

namespace Cert.KernelIdeal.Final

open Cert.KernelIdeal Cert.KernelIdeal.Gen Cert.KernelIdeal.Words Cert.KernelIdeal.Tile Cert.KernelIdeal.Block
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The batch a grid point works on. -/
def bt (t : Fin cfg0.N) : Fin 8 := Fin.cast N_0 t

/-! ## The staged arrays as the region finds them -/

theorem V_w1 (c : Dev nD) : (V m c main_v0 : S256x256.Idx → EReal) = transpose S256x256 [1, 0] (m ((c : Thread nD τ).loc main_arg1)) transposes_S256x256_S256x256_1_0 := by
  dsimp only [Gen.V, Gen.hostOps0]; after_results
  all_goals rfl

theorem V_w3 (c : Dev nD) : (V m c main_v1 : S256x256.Idx → EReal) = transpose S256x256 [1, 0] (m ((c : Thread nD τ).loc main_arg3)) transposes_S256x256_S256x256_1_0 := by
  dsimp only [Gen.V, Gen.hostOps0]; after_results
  all_goals rfl

theorem V_w5 (c : Dev nD) : (V m c main_v2 : S256x256.Idx → EReal) = transpose S256x256 [1, 0] (m ((c : Thread nD τ).loc main_arg5)) transposes_S256x256_S256x256_1_0 := by
  dsimp only [Gen.V, Gen.hostOps0]; after_results
  all_goals rfl

theorem V_b2 (c : Dev nD) : (V m c main_v3 : S1x256.Idx → EReal) = shapeCast S1x256 (m ((c : Thread nD τ).loc main_arg2)) shapeCasts_S256_S1x256 := by
  dsimp only [Gen.V, Gen.hostOps0]; after_results
  all_goals rfl

theorem V_b4 (c : Dev nD) : (V m c main_v4 : S1x256.Idx → EReal) = shapeCast S1x256 (m ((c : Thread nD τ).loc main_arg4)) shapeCasts_S256_S1x256 := by
  dsimp only [Gen.V, Gen.hostOps0]; after_results
  all_goals rfl

theorem V_b6 (c : Dev nD) : (V m c main_v5 : S1x256.Idx → EReal) = shapeCast S1x256 (m ((c : Thread nD τ).loc main_arg6)) shapeCasts_S256_S1x256 := by
  dsimp only [Gen.V, Gen.hostOps0]; after_results
  all_goals rfl

/-- The printed index maps over the eight points: the activations' and the result's blocks move with the batch; the others stay. -/
theorem idx_facts : ∀ t : Fin cfg0.N,
    win0_0.index t (0 : Fin 3) = t.val ∧ win0_0.index t (1 : Fin 3) = 0 ∧ win0_0.index t (2 : Fin 3) = 0
    ∧ win0_7.index t (0 : Fin 3) = t.val ∧ win0_7.index t (1 : Fin 3) = 0 ∧ win0_7.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## The staged blocks read at coordinates -/

theorem blk0 (c : Dev nD) (t : Fin cfg0.N) (s : Fin 2048) (h : Fin 256) :
    iblk m c 0 t (ix3 (0 : Fin 1) s h) = (m ((c : Thread nD τ).loc main_arg0)) (ix3 (bt t) s h) := by
  obtain ⟨e0, e1, e2, -⟩ := idx_facts t
  show V m c main_arg0 (((cfg0.win 0).blk t).view.emb (ix3 (0 : Fin 1) s h)) = _
  rw [V_main_arg0]
  refine congrArg _ ?_
  funext a; apply Fin.ext
  match a with
  | ⟨0, _⟩ => show win0_0.index t (0 : Fin 3) * 1 + 1 * 0 = t.val; omega
  | ⟨1, _⟩ => show win0_0.index t (1 : Fin 3) * 2048 + 1 * s.val = s.val; omega
  | ⟨2, _⟩ => show win0_0.index t (2 : Fin 3) * 256 + 1 * h.val = h.val; omega

theorem blk1 (c : Dev nD) (t : Fin cfg0.N) (h : Fin 256) (o : Fin 256) :
    iblk m c 1 t (ix2 h o) = (m ((c : Thread nD τ).loc main_arg1)) (ix2 o h) := by
  obtain ⟨-, -, -, -, -, -, e0, e1, -⟩ := idx_facts t
  show V m c main_v0 (((cfg0.win 1).blk t).view.emb (ix2 h o)) = _
  have e : ((cfg0.win 1).blk t).view.emb (ix2 h o) = ix2 h o := by
    funext a; apply Fin.ext
    match a with
    | ⟨0, _⟩ => show win0_1.index t (0 : Fin 2) * 256 + 1 * h.val = h.val; omega
    | ⟨1, _⟩ => show win0_1.index t (1 : Fin 2) * 256 + 1 * o.val = o.val; omega
  rw [e, V_w1, transpose_ix2_apply]

theorem blk3 (c : Dev nD) (t : Fin cfg0.N) (h : Fin 256) (o : Fin 256) :
    iblk m c 3 t (ix2 h o) = (m ((c : Thread nD τ).loc main_arg3)) (ix2 o h) := by
  obtain ⟨-, -, -, -, -, -, -, -, -, -, e0, e1, -⟩ := idx_facts t
  show V m c main_v1 (((cfg0.win 3).blk t).view.emb (ix2 h o)) = _
  have e : ((cfg0.win 3).blk t).view.emb (ix2 h o) = ix2 h o := by
    funext a; apply Fin.ext
    match a with
    | ⟨0, _⟩ => show win0_3.index t (0 : Fin 2) * 256 + 1 * h.val = h.val; omega
    | ⟨1, _⟩ => show win0_3.index t (1 : Fin 2) * 256 + 1 * o.val = o.val; omega
  rw [e, V_w3, transpose_ix2_apply]

theorem blk5 (c : Dev nD) (t : Fin cfg0.N) (h : Fin 256) (o : Fin 256) :
    iblk m c 5 t (ix2 h o) = (m ((c : Thread nD τ).loc main_arg5)) (ix2 o h) := by
  obtain ⟨-, -, -, -, -, -, -, -, -, -, -, -, -, -, e0, e1, -⟩ := idx_facts t
  show V m c main_v2 (((cfg0.win 5).blk t).view.emb (ix2 h o)) = _
  have e : ((cfg0.win 5).blk t).view.emb (ix2 h o) = ix2 h o := by
    funext a; apply Fin.ext
    match a with
    | ⟨0, _⟩ => show win0_5.index t (0 : Fin 2) * 256 + 1 * h.val = h.val; omega
    | ⟨1, _⟩ => show win0_5.index t (1 : Fin 2) * 256 + 1 * o.val = o.val; omega
  rw [e, V_w5, transpose_ix2_apply]

theorem blk2 (c : Dev nD) (t : Fin cfg0.N) (o : Fin 256) :
    iblk m c 2 t (ix2 (0 : Fin 1) o) = (m ((c : Thread nD τ).loc main_arg2)) (ix1 o) := by
  obtain ⟨-, -, -, -, -, -, -, -, e0, e1, -⟩ := idx_facts t
  show V m c main_v3 (((cfg0.win 2).blk t).view.emb (ix2 (0 : Fin 1) o)) = _
  have e : ((cfg0.win 2).blk t).view.emb (ix2 (0 : Fin 1) o) = ix2 (0 : Fin 1) o := by
    funext a; apply Fin.ext
    match a with
    | ⟨0, _⟩ => show win0_2.index t (0 : Fin 2) * 1 + 1 * 0 = 0; omega
    | ⟨1, _⟩ => show win0_2.index t (1 : Fin 2) * 256 + 1 * o.val = o.val; omega
  rw [e, V_b2, ValueIdx.shapeCast_a_1a_apply]

theorem blk4 (c : Dev nD) (t : Fin cfg0.N) (o : Fin 256) :
    iblk m c 4 t (ix2 (0 : Fin 1) o) = (m ((c : Thread nD τ).loc main_arg4)) (ix1 o) := by
  obtain ⟨-, -, -, -, -, -, -, -, -, -, -, -, e0, e1, -⟩ := idx_facts t
  show V m c main_v4 (((cfg0.win 4).blk t).view.emb (ix2 (0 : Fin 1) o)) = _
  have e : ((cfg0.win 4).blk t).view.emb (ix2 (0 : Fin 1) o) = ix2 (0 : Fin 1) o := by
    funext a; apply Fin.ext
    match a with
    | ⟨0, _⟩ => show win0_4.index t (0 : Fin 2) * 1 + 1 * 0 = 0; omega
    | ⟨1, _⟩ => show win0_4.index t (1 : Fin 2) * 256 + 1 * o.val = o.val; omega
  rw [e, V_b4, ValueIdx.shapeCast_a_1a_apply]

theorem blk6 (c : Dev nD) (t : Fin cfg0.N) (o : Fin 256) :
    iblk m c 6 t (ix2 (0 : Fin 1) o) = (m ((c : Thread nD τ).loc main_arg6)) (ix1 o) := by
  obtain ⟨-, -, -, -, -, -, -, -, -, -, -, -, -, -, -, -, e0, e1⟩ := idx_facts t
  show V m c main_v5 (((cfg0.win 6).blk t).view.emb (ix2 (0 : Fin 1) o)) = _
  have e : ((cfg0.win 6).blk t).view.emb (ix2 (0 : Fin 1) o) = ix2 (0 : Fin 1) o := by
    funext a; apply Fin.ext
    match a with
    | ⟨0, _⟩ => show win0_6.index t (0 : Fin 2) * 1 + 1 * 0 = 0; omega
    | ⟨1, _⟩ => show win0_6.index t (1 : Fin 2) * 256 + 1 * o.val = o.val; omega
  rw [e, V_b6, ValueIdx.shapeCast_a_1a_apply]

/-! ## The block's attention on blocks that are the arguments' is the specification at that batch -/

section Spec

open Cert.AttnSpec

theorem P_of (x0 : Vec Ideal S1x2048x256 .f32) (w : Vec Ideal S256x256 .f32) (b : Vec Ideal S1x256 .f32)
    (A0 : SX.Idx → EReal) (A1 : SW.Idx → EReal) (A2 : SB.Idx → EReal) (n : Fin 8)
    (h0 : ∀ s h, x0 (ix3 (0 : Fin 1) s h) = A0 (ix3 n s h)) (h1 : ∀ h o, w (ix2 h o) = A1 (ix2 o h))
    (h2 : ∀ o, b (ix2 (0 : Fin 1) o) = A2 (ix1 o)) (s : Fin 2048) (o : Fin 256) :
    P x0 w b s o = proj A0 A1 A2 n s o := by
  unfold P proj
  rw [h2]
  exact congrArg (· + _) (Finset.sum_congr rfl fun h _ => by rw [h0, h1])

theorem bE_of (x0 : Vec Ideal S1x2048x256 .f32) (x1 : Vec Ideal S256x256 .f32) (x2 : Vec Ideal S1x256 .f32) (x3 : Vec Ideal S256x256 .f32) (x4 : Vec Ideal S1x256 .f32)
    (A0 : SX.Idx → EReal) (A1 : SW.Idx → EReal) (A2 : SB.Idx → EReal) (A3 : SW.Idx → EReal) (A4 : SB.Idx → EReal) (n : Fin 8)
    (h0 : ∀ s h, x0 (ix3 (0 : Fin 1) s h) = A0 (ix3 n s h))
    (h1 : ∀ h o, x1 (ix2 h o) = A1 (ix2 o h)) (h2 : ∀ o, x2 (ix2 (0 : Fin 1) o) = A2 (ix1 o))
    (h3 : ∀ h o, x3 (ix2 h o) = A3 (ix2 o h)) (h4 : ∀ o, x4 (ix2 (0 : Fin 1) o) = A4 (ix1 o)) (q k : Fin 2048) :
    bE x0 x1 x2 x3 x4 q k = expScore A0 A1 A2 A3 A4 n q k := by
  unfold bE expScore score
  refine congrArg Ideal.exp (congrArg (· * _) (Finset.sum_congr rfl fun h _ => ?_))
  rw [P_of x0 x1 x2 A0 A1 A2 n h0 h1 h2, P_of x0 x3 x4 A0 A3 A4 n h0 h3 h4]

theorem bL_of (x0 : Vec Ideal S1x2048x256 .f32) (x1 : Vec Ideal S256x256 .f32) (x2 : Vec Ideal S1x256 .f32) (x3 : Vec Ideal S256x256 .f32) (x4 : Vec Ideal S1x256 .f32)
    (A0 : SX.Idx → EReal) (A1 : SW.Idx → EReal) (A2 : SB.Idx → EReal) (A3 : SW.Idx → EReal) (A4 : SB.Idx → EReal) (n : Fin 8)
    (h0 : ∀ s h, x0 (ix3 (0 : Fin 1) s h) = A0 (ix3 n s h))
    (h1 : ∀ h o, x1 (ix2 h o) = A1 (ix2 o h)) (h2 : ∀ o, x2 (ix2 (0 : Fin 1) o) = A2 (ix1 o))
    (h3 : ∀ h o, x3 (ix2 h o) = A3 (ix2 o h)) (h4 : ∀ o, x4 (ix2 (0 : Fin 1) o) = A4 (ix1 o)) (k : Fin 2048) :
    bL x0 x1 x2 x3 x4 k = colSum A0 A1 A2 A3 A4 n k := by
  unfold bL colSum
  exact Finset.sum_congr rfl fun q _ => bE_of x0 x1 x2 x3 x4 A0 A1 A2 A3 A4 n h0 h1 h2 h3 h4 q k

theorem bOut_of (x0 : Vec Ideal S1x2048x256 .f32) (x1 : Vec Ideal S256x256 .f32) (x2 : Vec Ideal S1x256 .f32) (x3 : Vec Ideal S256x256 .f32) (x4 : Vec Ideal S1x256 .f32)
    (A0 : SX.Idx → EReal) (A1 : SW.Idx → EReal) (A2 : SB.Idx → EReal) (A3 : SW.Idx → EReal) (A4 : SB.Idx → EReal) (n : Fin 8)
    (h0 : ∀ s h, x0 (ix3 (0 : Fin 1) s h) = A0 (ix3 n s h))
    (h1 : ∀ h o, x1 (ix2 h o) = A1 (ix2 o h)) (h2 : ∀ o, x2 (ix2 (0 : Fin 1) o) = A2 (ix1 o))
    (h3 : ∀ h o, x3 (ix2 h o) = A3 (ix2 o h)) (h4 : ∀ o, x4 (ix2 (0 : Fin 1) o) = A4 (ix1 o))
    (x5 : Vec Ideal S256x256 .f32) (x6 : Vec Ideal S1x256 .f32) (A5 : SW.Idx → EReal) (A6 : SB.Idx → EReal)
    (h5 : ∀ h o, x5 (ix2 h o) = A5 (ix2 o h)) (h6 : ∀ o, x6 (ix2 (0 : Fin 1) o) = A6 (ix1 o)) (s : Fin 2048) (o : Fin 256) :
    bOut x0 x1 x2 x3 x4 x5 x6 (ix3 (0 : Fin 1) s o) = attn A0 A1 A2 A3 A4 A5 A6 (ix3 n s o) := by
  unfold bOut attn
  refine Finset.sum_congr rfl fun k _ => ?_
  show (bE x0 x1 x2 x3 x4 s k * Ideal.div (Ideal.ofBits .f32 0x3F800000#32) (bL x0 x1 x2 x3 x4 k)) * P x0 x5 x6 k o
    = (expScore A0 A1 A2 A3 A4 n s k * Ideal.div one (colSum A0 A1 A2 A3 A4 n k)) * proj A0 A5 A6 n k o
  rw [bE_of x0 x1 x2 x3 x4 A0 A1 A2 A3 A4 n h0 h1 h2 h3 h4, bL_of x0 x1 x2 x3 x4 A0 A1 A2 A3 A4 n h0 h1 h2 h3 h4,
    P_of x0 x5 x6 A0 A5 A6 n h0 h5 h6]

end Spec

/-! ## The result array -/

/-- The specification of the argument arrays on core `c`. -/
def G (c : Dev nD) : S8x2048x256.Idx → EReal :=
  Cert.AttnSpec.attn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- What point t writes back is block t of the specification. -/
theorem flushed_eq (c : Dev nD) (t : Fin cfg0.N) :
    (dats m 0 c).flushed 7 t = ((cfg0.win 7).blk t).view.read (Elt Ideal) (G m c) := by
  rw [Cert.KernelIdeal.Value.flushed7_A, out_eq_bOut]
  obtain ⟨-, -, -, e0, e1, e2, -⟩ := idx_facts t
  funext j
  obtain ⟨u, s, o, rfl⟩ : ∃ (u : Fin 1) (s : Fin 2048) (o : Fin 256), j = ix3 u s o := ⟨j 0, j 1, j 2, eq_ix3 j⟩
  obtain rfl : u = 0 := Subsingleton.elim _ _
  show bOut (iblk m c 0 t) (iblk m c 1 t) (iblk m c 2 t) (iblk m c 3 t) (iblk m c 4 t) (iblk m c 5 t) (iblk m c 6 t) (ix3 (0 : Fin 1) s o)
    = G m c (((cfg0.win 7).blk t).view.emb (ix3 (0 : Fin 1) s o))
  have e : ((cfg0.win 7).blk t).view.emb (ix3 (0 : Fin 1) s o) = ix3 (bt t) s o := by
    funext a; apply Fin.ext
    match a with
    | ⟨0, _⟩ => show win0_7.index t (0 : Fin 3) * 1 + 1 * 0 = t.val; omega
    | ⟨1, _⟩ => show win0_7.index t (1 : Fin 3) * 2048 + 1 * s.val = s.val; omega
    | ⟨2, _⟩ => show win0_7.index t (2 : Fin 3) * 256 + 1 * o.val = o.val; omega
  rw [e]
  exact bOut_of _ _ _ _ _ _ _ _ _ _ (bt t) (blk0 m c t) (blk1 m c t) (blk2 m c t) (blk3 m c t) (blk4 m c t) _ _ _ _ (blk5 m c t) (blk6 m c t) s o

/-- Every index of the result lies in the block of the point of its batch. -/
theorem cover (c : Dev nD) (i : S8x2048x256.Idx) :
    ∃ t : Fin cfg0.N, (cfg0.win 7).flush t = true ∧ i ∈ ((cfg0.win 7).blk t).view.set := by
  have hb : (i 0).val < 8 := (i 0).isLt
  have hs : (i 1).val < 2048 := (i 1).isLt
  have ho : (i 2).val < 256 := (i 2).isLt
  let t : Fin cfg0.N := Fin.cast N_0.symm ⟨(i 0).val, hb⟩
  have ht : t.val = (i 0).val := rfl
  obtain ⟨-, -, -, e0, e1, e2, -⟩ := idx_facts t
  refine ⟨t, flush0_7 t, ?_⟩
  show i ∈ ((View.whole main_v6).slice (win0_7.rect t)).set
  rw [View.set_slice_whole, Rect.mem_set_unit]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 2048 ≤ (i 1).val ∧ (i 1).val < win0_7.index t (1 : Fin 3) * 2048 + 2048; omega
  | ⟨2, _⟩ => show win0_7.index t (2 : Fin 3) * 256 ≤ (i 2).val ∧ (i 2).val < win0_7.index t (2 : Fin 3) * 256 + 256; omega

/-- The result array after the run is the specification of the arguments. -/
theorem final (c : Dev nD) : (dats m 0 c).arrAt 7 cfg0.N = G m c :=
  (dats m 0 c).arrAt_eq_of_cover 7 (G m c) (fun t _ => flushed_eq m c t) (cover c)

/-- The kernel's run: every weakly fair execution terminates with the result at the specification of the arguments, and the
    arguments unchanged. -/
theorem run : θ_run defs (onTc (τ := τ) (main (F := Ideal))) ⟨m, fun _ => 0, ρ⟩ fun r => ∀ c : Dev nD,
      r.2.mem ((c : Thread nD τ).loc main_v6) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.Final

end
-- ==== Proof.RefIsAttn.lean ====
/-
  The reference program computes the specification Cert.AttnSpec.attn.

  The reference forms the three linear layers Q, K, V, the scores (Σ_h Q·K) / 256, then for each batch n and key k
  the maximum M(n, k) of the scores over every query, the exponentials exp (score − M), their sum over the queries,
  the quotient, and the product with V summed over the keys. The specification subtracts no maximum and multiplies by
  the reciprocal of the sum of the plain exponentials. With every input a real number, every score is a real, M(n, k)
  is a real μ, and over the reals
      exp (s q − μ) / Σ_q' exp (s q' − μ)  =  exp (s q) · (1 / Σ_q' exp (s q')),
  since the common factor exp (−μ) is not zero and the sum of exponentials is positive.
-/
import proofs.«160842_j22067541967525_2_alg».proof.Proof.Gen.ReferenceIdeal.Read
import proofs.«160842_j22067541967525_2_alg».proof.Proof.AttnSpec
import Idealize.ShloMosaic.Lib.ValueIdx
import Idealize.ShloMosaic.PureOps.Ideal.Laws
import Idealize.ShloMosaic.PureOps.Reduce
import Idealize.ShloMosaic.Lib.Pipeline.Value

noncomputable section

namespace Cert.RefIsAttn

open Idealize.ShloMosaic Idealize.ShloMosaic.ValueIdx Cert.AttnSpec Cert.ReferenceIdeal Cert.ReferenceIdeal.Gen
open Cert.ReferenceIdeal.Read

/-! ## The float words the two sides spell -/

/-- The divisor's word denotes the real 256. -/
theorem ofBits_256 : Ideal.ofBits .f32 0x43800000#32 = ((256 : ℝ) : EReal) := by
  simp [Ideal.ofBits, Ideal.ieee, -EReal.coe_mul]; norm_num

/-- The scale's word denotes the real 1/256. -/
theorem invH_eq : invH = (((1 : ℝ) / 256 : ℝ) : EReal) := by
  simp [Ideal.ofBits, Ideal.ieee, -EReal.coe_mul]; norm_num

/-- The numerator's word denotes the real 1. -/
theorem one_eq : one = ((1 : ℝ) : EReal) := by
  simp [Ideal.ofBits, Ideal.ieee, -EReal.coe_mul]; norm_num

/-- The maximum's initial word denotes −∞. -/
theorem ofBits_negInf : Ideal.ofBits .f32 0xFF800000#32 = (⊥ : EReal) := by
  simp [Ideal.ofBits, Ideal.ieee]

/-! ## The law over the reals, and its lift to the extended reals -/

/-- Subtracting a common real μ from every score changes neither side of a softmax. -/
theorem softmax_shift {Q : Type*} [Fintype Q] [Nonempty Q] (s : Q → ℝ) (μ : ℝ) (q : Q) :
    Real.exp (s q - μ) * (1 / ∑ q', Real.exp (s q' - μ)) = Real.exp (s q) * (1 / ∑ q', Real.exp (s q')) := by
  have hpos : 0 < ∑ q', Real.exp (s q') := Finset.sum_pos (fun i _ => Real.exp_pos _) Finset.univ_nonempty
  have hμ : Real.exp μ ≠ 0 := (Real.exp_pos μ).ne'
  simp only [Real.exp_sub]
  rw [← Finset.sum_div]
  field_simp

/-- A finite sum of reals, read in the extended reals, is the sum of the readings. -/
theorem coe_sum {ι : Type*} (t : Finset ι) (f : ι → ℝ) :
    ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-- The same law in the extended reals, as the two programs spell it: the reference divides the shifted exponential by
    zero plus the sum of the shifted exponentials; the specification multiplies the plain exponential by the reciprocal of the
    plain sum. -/
theorem softmax_law {Q : Type*} [Fintype Q] [Nonempty Q] (s : Q → ℝ) (μ : ℝ) (q : Q) :
    Ideal.div (Ideal.exp (((s q : ℝ) : EReal) - ((μ : ℝ) : EReal)))
        ((0 : EReal) + ∑ q', Ideal.exp (((s q' : ℝ) : EReal) - ((μ : ℝ) : EReal)))
      = Ideal.exp ((s q : ℝ) : EReal) * Ideal.div ((1 : ℝ) : EReal) (∑ q', Ideal.exp ((s q' : ℝ) : EReal)) := by
  have hpos : 0 < ∑ q', Real.exp (s q') := Finset.sum_pos (fun i _ => Real.exp_pos _) Finset.univ_nonempty
  have hpos' : 0 < ∑ q', Real.exp (s q' - μ) := Finset.sum_pos (fun i _ => Real.exp_pos _) Finset.univ_nonempty
  simp only [← EReal.coe_sub, Ideal.exp_coe, coe_sum, zero_add]
  rw [Ideal.div_coe hpos'.ne', Ideal.div_coe hpos.ne', ← EReal.coe_mul, ← EReal.coe_mul, ← EReal.coe_mul, one_mul,
    softmax_shift]

/-! ## A maximum over finitely many reals, started from −∞, is a real -/

/-- The fold of max from −∞ over a finite set of reals is −∞ on the empty set and a real otherwise. -/
theorem fold_max_real {ι : Type*} (t : Finset ι) (f : ι → EReal) (hf : ∀ i, ∃ r : ℝ, f i = (r : EReal)) :
    (t = ∅ ∧ t.fold max (⊥ : EReal) f = ⊥) ∨ ∃ r : ℝ, t.fold max (⊥ : EReal) f = (r : EReal) := by
  classical
  induction t using Finset.induction_on with
  | empty => exact Or.inl ⟨rfl, Finset.fold_empty⟩
  | insert a t ha ih =>
    right
    obtain ⟨ra, hra⟩ := hf a
    rw [Finset.fold_insert ha, hra]
    rcases ih with ⟨_, h0⟩ | ⟨r, hr⟩
    · exact ⟨ra, by rw [h0, max_eq_left bot_le]⟩
    · rcases le_total ra r with h | h
      · exact ⟨r, by rw [hr, max_eq_right (EReal.coe_le_coe h)]⟩
      · exact ⟨ra, by rw [hr, max_eq_left (EReal.coe_le_coe h)]⟩

/-! ## The reference's index maps at coordinates -/

theorem lidx0_ix (n : Fin 8) (s : Fin 2048) (o h : Fin 256) : lidx_main_v0 (ix3 n s o) h = ix3 n s h :=
  funext fun a => Fin.ext (by match a with | ⟨0, _⟩ => rfl | ⟨1, _⟩ => rfl | ⟨2, _⟩ => rfl)
theorem ridx0_ix (n : Fin 8) (s : Fin 2048) (o h : Fin 256) : ridx_main_v0 (ix3 n s o) h = ix2 o h :=
  funext fun a => Fin.ext (by match a with | ⟨0, _⟩ => rfl | ⟨1, _⟩ => rfl)
theorem bias0_ix (n : Fin 8) (s : Fin 2048) (o : Fin 256) : idx_main_v1 (idx_main_v2 (ix3 n s o)) = ix1 o :=
  funext fun a => Fin.ext (by match a with | ⟨0, _⟩ => rfl)
theorem lidx4_ix (n : Fin 8) (s : Fin 2048) (o h : Fin 256) : lidx_main_v4 (ix3 n s o) h = ix3 n s h :=
  funext fun a => Fin.ext (by match a with | ⟨0, _⟩ => rfl | ⟨1, _⟩ => rfl | ⟨2, _⟩ => rfl)
theorem ridx4_ix (n : Fin 8) (s : Fin 2048) (o h : Fin 256) : ridx_main_v4 (ix3 n s o) h = ix2 o h :=
  funext fun a => Fin.ext (by match a with | ⟨0, _⟩ => rfl | ⟨1, _⟩ => rfl)
theorem bias4_ix (n : Fin 8) (s : Fin 2048) (o : Fin 256) : idx_main_v5 (idx_main_v6 (ix3 n s o)) = ix1 o :=
  funext fun a => Fin.ext (by match a with | ⟨0, _⟩ => rfl)
theorem lidx8_ix (n : Fin 8) (s : Fin 2048) (o h : Fin 256) : lidx_main_v8 (ix3 n s o) h = ix3 n s h :=
  funext fun a => Fin.ext (by match a with | ⟨0, _⟩ => rfl | ⟨1, _⟩ => rfl | ⟨2, _⟩ => rfl)
theorem ridx8_ix (n : Fin 8) (s : Fin 2048) (o h : Fin 256) : ridx_main_v8 (ix3 n s o) h = ix2 o h :=
  funext fun a => Fin.ext (by match a with | ⟨0, _⟩ => rfl | ⟨1, _⟩ => rfl)
theorem bias8_ix (n : Fin 8) (s : Fin 2048) (o : Fin 256) : idx_main_v9 (idx_main_v10 (ix3 n s o)) = ix1 o :=
  funext fun a => Fin.ext (by match a with | ⟨0, _⟩ => rfl)
theorem lidx12_ix (n : Fin 8) (q k : Fin 2048) (h : Fin 256) : lidx_main_v12 (ix3 n q k) h = ix3 n q h :=
  funext fun a => Fin.ext (by match a with | ⟨0, _⟩ => rfl | ⟨1, _⟩ => rfl | ⟨2, _⟩ => rfl)
theorem ridx12_ix (n : Fin 8) (q k : Fin 2048) (h : Fin 256) : ridx_main_v12 (ix3 n q k) h = ix3 n k h :=
  funext fun a => Fin.ext (by match a with | ⟨0, _⟩ => rfl | ⟨1, _⟩ => rfl | ⟨2, _⟩ => rfl)
theorem idx1819_ix (n : Fin 8) (q k : Fin 2048) : idx_main_v18 (idx_main_v19 (ix3 n q k)) = ix2 n k :=
  funext fun a => Fin.ext (by match a with | ⟨0, _⟩ => rfl | ⟨1, _⟩ => rfl)
theorem idx2324_ix (n : Fin 8) (q k : Fin 2048) : idx_main_v23 (idx_main_v24 (ix3 n q k)) = ix2 n k :=
  funext fun a => Fin.ext (by match a with | ⟨0, _⟩ => rfl | ⟨1, _⟩ => rfl)
theorem idx22_ix (n : Fin 8) (k q : Fin 2048) : idx_main_v22 (ix2 n k) q = ix3 n q k :=
  funext fun a => Fin.ext (by match a with | ⟨0, _⟩ => rfl | ⟨1, _⟩ => rfl | ⟨2, _⟩ => rfl)
theorem lidx26_ix (n : Fin 8) (q : Fin 2048) (o : Fin 256) (k : Fin 2048) : lidx_main_v26 (ix3 n q o) k = ix3 n q k :=
  funext fun a => Fin.ext (by match a with | ⟨0, _⟩ => rfl | ⟨1, _⟩ => rfl | ⟨2, _⟩ => rfl)
theorem ridx26_ix (n : Fin 8) (q : Fin 2048) (o : Fin 256) (k : Fin 2048) : ridx_main_v26 (ix3 n q o) k = ix3 n k o :=
  funext fun a => Fin.ext (by match a with | ⟨0, _⟩ => rfl | ⟨1, _⟩ => rfl | ⟨2, _⟩ => rfl)

/-! ## The reference's stages at coordinates -/

variable (x0 : SX.Idx → EReal) (x1 : SW.Idx → EReal) (x2 : SB.Idx → EReal) (x3 : SW.Idx → EReal) (x4 : SB.Idx → EReal)
  (x5 : SW.Idx → EReal) (x6 : SB.Idx → EReal)

/-- The first linear layer (the queries) at (n, s, o). -/
theorem v3_at (n : Fin 8) (s : Fin 2048) (o : Fin 256) :
    val_main_v3 (F := Ideal) x0 x1 x2 (ix3 n s o) = proj x0 x1 x2 n s o := by
  rw [val_main_v3_apply, val_main_v0_apply, val_main_v2_apply, val_main_v1_apply, bias0_ix]
  simp only [lidx0_ix, ridx0_ix, Ideal.addf_def]
  rfl

/-- The second linear layer (the keys) at (n, s, o). -/
theorem v7_at (n : Fin 8) (s : Fin 2048) (o : Fin 256) :
    val_main_v7 (F := Ideal) x0 x3 x4 (ix3 n s o) = proj x0 x3 x4 n s o := by
  rw [val_main_v7_apply, val_main_v4_apply, val_main_v6_apply, val_main_v5_apply, bias4_ix]
  simp only [lidx4_ix, ridx4_ix, Ideal.addf_def]
  rfl

/-- The third linear layer (the values) at (n, s, o). -/
theorem v11_at (n : Fin 8) (s : Fin 2048) (o : Fin 256) :
    val_main_v11 (F := Ideal) x0 x5 x6 (ix3 n s o) = proj x0 x5 x6 n s o := by
  rw [val_main_v11_apply, val_main_v8_apply, val_main_v10_apply, val_main_v9_apply, bias8_ix]
  simp only [lidx8_ix, ridx8_ix, Ideal.addf_def]
  rfl

/-- The scaled score at (n, q, k): dividing by the word 256 is multiplying by the word 2⁻⁸. -/
theorem v14_at (n : Fin 8) (q k : Fin 2048) :
    val_main_v14 (F := Ideal) x0 x1 x2 x3 x4 (ix3 n q k) = score x0 x1 x2 x3 x4 n q k := by
  rw [val_main_v14_apply, val_main_v13_apply, val_main_cst_apply, val_main_v12_apply, Ideal.hostDivf_def, Ideal.ofBits_def,
    ofBits_256, Ideal.div_coe (by norm_num)]
  simp only [lidx12_ix, ridx12_ix, v3_at, v7_at]
  unfold score
  rw [invH_eq]

/-! ## With real inputs every score is a real, and so is the maximum the reference subtracts -/

/-- A linear layer of real arrays is real. -/
theorem proj_real {x : SX.Idx → EReal} {W : SW.Idx → EReal} {b : SB.Idx → EReal} (hx : IsReal x) (hW : IsReal W) (hb : IsReal b)
    (n : Fin 8) (s : Fin 2048) (o : Fin 256) : ∃ r : ℝ, proj x W b n s o = (r : EReal) := by
  choose fx hfx using hx
  choose fW hfW using hW
  choose fb hfb using hb
  refine ⟨(∑ h : Fin 256, fx (ix3 n s h) * fW (ix2 o h)) + fb (ix1 o), ?_⟩
  simp only [proj, hfx, hfW, hfb, ← EReal.coe_mul, coe_sum, ← EReal.coe_add]

/-- The scores of real arrays are reals: one real function of (n, q, k). -/
theorem score_real (h0 : IsReal x0) (h1 : IsReal x1) (h2 : IsReal x2) (h3 : IsReal x3) (h4 : IsReal x4) :
    ∃ s : Fin 8 → Fin 2048 → Fin 2048 → ℝ, ∀ n q k, score x0 x1 x2 x3 x4 n q k = ((s n q k : ℝ) : EReal) := by
  choose fq hfq using proj_real h0 h1 h2
  choose fk hfk using proj_real h0 h3 h4
  refine ⟨fun n q k => (∑ h : Fin 256, fq n q h * fk n k h) * ((1 : ℝ) / 256), fun n q k => ?_⟩
  simp only [score, hfq, hfk, invH_eq, ← EReal.coe_mul, coe_sum]

/-- The maximum over the queries that the reference subtracts, at any (n, k), is a real once every score is. -/
theorem v17_real (hs : ∀ j, ∃ r : ℝ, val_main_v14 (F := Ideal) x0 x1 x2 x3 x4 j = (r : EReal)) (j : S8x2048.Idx) :
    ∃ μ : ℝ, val_main_v17 (F := Ideal) x0 x1 x2 x3 x4 j = (μ : EReal) := by
  have hR : S8x2048x2048.Reduces [1] S8x2048 := by decide
  rw [val_main_v17_apply, val_main_v16_apply, val_main_cst_1_apply]
  unfold val_main_v15
  generalize val_main_v14 (F := Ideal) x0 x1 x2 x3 x4 = y at hs ⊢
  have e := Host.reduce_eq_fold_single (FloatOps.maximumf (F := Ideal) (φ := .f32)) y (val_main_cst_0 (F := Ideal))
    reducesTo_S8x2048x2048_S8x2048_d1 hR h_S_ j
  rw [e, val_main_cst_0_apply, Ideal.maximumf_def, Ideal.ofBits_def, ofBits_negInf]
  haveI : Nonempty (Fin (S8x2048x2048.size 1)) := ⟨⟨0, by decide⟩⟩
  rcases fold_max_real (Finset.univ : Finset (Fin (S8x2048x2048.size 1))) (y ∘ hR.lift j) (fun k => hs _) with ⟨he, _⟩ | ⟨r, hr⟩
  · exact absurd he (Finset.univ_nonempty (α := Fin (S8x2048x2048.size 1))).ne_empty
  · refine ⟨r, ?_⟩
    rw [max_eq_right bot_le]
    exact hr

/-! ## The softmax stages at coordinates -/

/-- The shifted exponential at (n, q, k): the score minus the maximum at (n, k), exponentiated. -/
theorem v21_at (n : Fin 8) (q k : Fin 2048) :
    val_main_v21 (F := Ideal) x0 x1 x2 x3 x4 (ix3 n q k)
      = Ideal.exp (score x0 x1 x2 x3 x4 n q k - val_main_v17 (F := Ideal) x0 x1 x2 x3 x4 (ix2 n k)) := by
  rw [val_main_v21_apply, val_main_v20_apply, val_main_v19_apply, val_main_v18_apply, idx1819_ix, v14_at,
    Ideal.hostUnary_exp_def, Ideal.subf_def]

/-- The reference's normaliser at (n, k): zero plus the shifted exponentials summed over every query. -/
theorem v22_at (n : Fin 8) (k : Fin 2048) :
    val_main_v22 (F := Ideal) x0 x1 x2 x3 x4 (ix2 n k)
      = (0 : EReal) + ∑ q : Fin 2048, val_main_v21 (F := Ideal) x0 x1 x2 x3 x4 (ix3 n q k) := by
  rw [val_main_v22_apply, val_main_cst_2_apply, Ideal.ofBits_def, Ideal.ofBits_zero_f32]
  simp only [idx22_ix]

/-- The reference's weight at (n, q, k): the shifted exponential over the normaliser of key k. -/
theorem v25_at (n : Fin 8) (q k : Fin 2048) :
    val_main_v25 (F := Ideal) x0 x1 x2 x3 x4 (ix3 n q k)
      = Ideal.div (val_main_v21 (F := Ideal) x0 x1 x2 x3 x4 (ix3 n q k)) (val_main_v22 (F := Ideal) x0 x1 x2 x3 x4 (ix2 n k)) := by
  rw [val_main_v25_apply, val_main_v24_apply, val_main_v23_apply, idx2324_ix, Ideal.hostDivf_def]

/-! ## The reference is the specification -/

/-- On real inputs the reference's result array is the specification's, entry by entry: at (n, q, o) both are the sum over
    the keys k of a weight times V(n, k, o), and the two weights agree by the softmax law with μ the maximum at (n, k). -/
theorem ref_eq_attn (h0 : IsReal x0) (h1 : IsReal x1) (h2 : IsReal x2) (h3 : IsReal x3) (h4 : IsReal x4) (h5 : IsReal x5)
    (h6 : IsReal x6) :
    val_main_v26 (F := Ideal) x0 x1 x2 x3 x4 x5 x6 = attn x0 x1 x2 x3 x4 x5 x6 := by
  obtain ⟨s, hs⟩ := score_real x0 x1 x2 x3 x4 h0 h1 h2 h3 h4
  have hreal : ∀ j, ∃ r : ℝ, val_main_v14 (F := Ideal) x0 x1 x2 x3 x4 j = (r : EReal) := by
    intro j
    obtain ⟨n, q, k, rfl⟩ : ∃ (n : Fin 8) (q k : Fin 2048), j = ix3 n q k := ⟨j 0, j 1, j 2, eq_ix3 j⟩
    exact ⟨s n q k, by rw [v14_at, hs]⟩
  funext i
  obtain ⟨n, q, o, rfl⟩ : ∃ (n : Fin 8) (q : Fin 2048) (o : Fin 256), i = ix3 n q o := ⟨i 0, i 1, i 2, eq_ix3 i⟩
  rw [val_main_v26_apply]
  show _ = ∑ k : Fin 2048, (expScore x0 x1 x2 x3 x4 n q k * Ideal.div one (colSum x0 x1 x2 x3 x4 n k)) * proj x0 x5 x6 n k o
  refine Finset.sum_congr rfl fun k _ => ?_
  rw [lidx26_ix, ridx26_ix, v11_at, v25_at, v22_at]
  obtain ⟨μ, hμ⟩ := v17_real x0 x1 x2 x3 x4 hreal (ix2 n k)
  simp only [v21_at, hμ, hs]
  rw [softmax_law (fun q' => s n q' k) μ q]
  simp only [expScore, colSum, hs, one_eq]

end Cert.RefIsAttn

end
-- ==== Proof.LibRangeOfReduce.lean ====
/-
  Bounds read back from an `and`-reduction over every entry of an array.

  A predicate that ends in "all entries satisfy …" is an `and`-reduction, from one, of the array of the entries' one-bit
  tests, and the claim is that its result is one. Then every entry passed its test. Two tests are read back here:
  a signed integer entry between two bounds (`lo ≤ x` and `x ≤ hi`, each a signed comparison), and an extended-real
  entry of finite size (`|x| < +∞`, where `|x|` is `max x (-x)`): such an entry is a real number.
-/
import Idealize.ShloMosaic.Lib.ReduceAll
import Idealize.ShloMosaic.PureOps.Ideal
import Idealize.ShloMosaic.PureOps.Ideal.Laws

namespace Cert.Lib.RangeOfReduce

open Idealize.ShloMosaic

variable {s t u : Shape} {axes : List (Fin s.rank)}

/-- If the `and` over ALL entries of "`lo ≤ x` and `x ≤ hi`" (signed comparisons, entry by entry against the arrays
    `lo` and `hi` — splat constants in the usual case) is one, every entry of `x` lies between its bounds. -/
theorem sbounds_of_reduce_all [Subsingleton t.Idx] {w : Nat} (x lo hi : IVec s w) (init : u.Idx → BitVec 1)
    (h : s.ReducesTo axes t) (hu : 0 < u.numel) (j : t.Idx)
    (e : Host.reduce IntOp.andi (andi (cmpi .sge x lo) (cmpi .sle x hi)) init h hu j = 1#1) (i : s.Idx) :
    (lo i).toInt ≤ (x i).toInt ∧ (x i).toInt ≤ (hi i).toInt := by
  obtain ⟨hge, hle⟩ := IntOp.andi_eq_one.1 (Host.reduce_andi_all _ init h hu j e i)
  exact ⟨IntOp.cmpi_sge.1 hge, IntOp.cmpi_sle.1 hle⟩

/-- A one-bit word made from a truth value is one exactly when the value is true. -/
theorem ofBool_eq_one {b : Bool} : BitVec.ofBool b = 1#1 ↔ b = true := by cases b <;> decide

/-- An extended real whose absolute value `max x (-x)` is below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- If the `and` over ALL entries of "`|x| < bound`" is one and the bound array is `+∞` everywhere, every entry of
    `x` is a real number. -/
theorem real_of_reduce_all [Subsingleton t.Idx] {φ : FTy} (x bound : FVec Ideal s φ) (hb : ∀ i, bound i = (⊤ : EReal))
    (init : u.Idx → BitVec 1) (h : s.ReducesTo axes t) (hu : 0 < u.numel) (j : t.Idx)
    (e : Host.reduce IntOp.andi (cmpf .olt (Host.absf x) bound) init h hu j = 1#1) (i : s.Idx) :
    ∃ r : ℝ, x i = (r : EReal) := by
  have hi : Ideal.cmp .olt (max (x i) (-(x i))) (bound i) = 1#1 := Host.reduce_andi_all _ init h hu j e i
  rw [hb i] at hi
  refine real_of_abs_lt_top (x i) ?_
  have hd : decide (max (x i) (-(x i)) < (⊤ : EReal)) = true := ofBool_eq_one.1 hi
  exact of_decide_eq_true hd

end Cert.Lib.RangeOfReduce
-- ==== Proof.RealInputs.lean ====
/-
  Finite inputs are real.

  The precondition tests, for each of the seven argument arrays, that every entry x has |x| < +∞ (the bound is the
  float word that denotes +∞, spread over the array's shape), folds each array's one-bit tests into one bit by
  "and", and "and"s the seven bits together; the claim is that the final bit is one. Then each of the seven bits is
  one, so every entry of every array passed its test, and an extended real of finite absolute value is a real number.
-/
import proofs.«160842_j22067541967525_2_alg».proof.Pre_finite_inputs
import proofs.«160842_j22067541967525_2_alg».proof.Proof.Gen.Pre_finite_inputs
import proofs.«160842_j22067541967525_2_alg».proof.Proof.AttnSpec
import proofs.«160842_j22067541967525_2_alg».proof.Proof.LibRangeOfReduce
import Idealize.ShloMosaic.Lib.ReduceAll

namespace Cert.RealInputs

open Idealize.ShloMosaic Idealize.ShloMosaic.ValueIdx Cert.Pre_finite_inputs

/-- The shape with no axes has exactly one index. -/
instance : Subsingleton S_.Idx := ⟨fun a b => funext fun d => d.elim0⟩

/-- The float word 0x7F800000 denotes +∞. -/
theorem inf_word : Ideal.ofBits .f32 0x7F800000#32 = (⊤ : EReal) := by simp [Ideal.ofBits, Ideal.ieee]

/-- The scalar +∞ spread over any shape is +∞ at every index. -/
theorem bound_top {S : Shape} (hb : S_.BroadcastsInDim S (![] : Fin 0 → Fin S.rank)) (i : S.Idx) :
    broadcastInDim S ![] hb (constant (F := Ideal) S_ .f32 0x7F800000#32) i = (⊤ : EReal) := inf_word

/-- If the precondition's bit is one, every entry of each of the seven argument arrays is a real number. -/
theorem real_of_pre [Cert.Pre_finite_inputs.Facts] (a0 : FVec Ideal Cert.Pre_finite_inputs.S8x2048x256 .f32)
    (a1 : FVec Ideal Cert.Pre_finite_inputs.S256x256 .f32) (a2 : FVec Ideal Cert.Pre_finite_inputs.S256 .f32)
    (a3 : FVec Ideal Cert.Pre_finite_inputs.S256x256 .f32) (a4 : FVec Ideal Cert.Pre_finite_inputs.S256 .f32)
    (a5 : FVec Ideal Cert.Pre_finite_inputs.S256x256 .f32) (a6 : FVec Ideal Cert.Pre_finite_inputs.S256 .f32)
    (h : Cert.Pre_finite_inputs.fn (F := Ideal) a0 a1 a2 a3 a4 a5 a6 = fun _ => 1#1) :
    Cert.AttnSpec.IsReal a0 ∧ Cert.AttnSpec.IsReal a1 ∧ Cert.AttnSpec.IsReal a2 ∧ Cert.AttnSpec.IsReal a3 ∧
      Cert.AttnSpec.IsReal a4 ∧ Cert.AttnSpec.IsReal a5 ∧ Cert.AttnSpec.IsReal a6 := by
  have e := congrFun h ValueIdx.ix0
  dsimp only [Cert.Pre_finite_inputs.fn, Cert.Pre_finite_inputs.fn_part1] at e
  -- the final bit is an "and" of seven bits, nested to the left: each of them is one
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  -- each bit is the "and" over a whole array of the tests |x| < +∞
  exact ⟨fun i => Cert.Lib.RangeOfReduce.real_of_reduce_all a0 _ (bound_top _) _ _ _ _ e0 i,
    fun i => Cert.Lib.RangeOfReduce.real_of_reduce_all a1 _ (bound_top _) _ _ _ _ e1 i,
    fun i => Cert.Lib.RangeOfReduce.real_of_reduce_all a2 _ (bound_top _) _ _ _ _ e2 i,
    fun i => Cert.Lib.RangeOfReduce.real_of_reduce_all a3 _ (bound_top _) _ _ _ _ e3 i,
    fun i => Cert.Lib.RangeOfReduce.real_of_reduce_all a4 _ (bound_top _) _ _ _ _ e4 i,
    fun i => Cert.Lib.RangeOfReduce.real_of_reduce_all a5 _ (bound_top _) _ _ _ _ e5 i,
    fun i => Cert.Lib.RangeOfReduce.real_of_reduce_all a6 _ (bound_top _) _ _ _ _ e6 i⟩

end Cert.RealInputs
-- ==== Proof.lean ====
/-
  A fused attention kernel whose softmax runs over the QUERY axis, against its jnp reference, at the ideal values.

  Both programs compute, for activations x : [8, 2048, 256] and three linear layers (Q, K, V), the array
    attn (n, q, o) = sum over keys k of ( exp (s(n, q, k)) * (1 / sum over ALL queries q' of exp (s(n, q', k))) ) * V(n, k, o),
    s(n, q, k) = (sum over h of Q(n, q, h) * K(n, k, h)) * 2⁻⁸
  (Proof/AttnSpec.lean). The kernel computes exactly this, one batch per grid point, the 2048 queries in eight tiles of
  256 rows walked twice (first the exponentials and the running column sums, then the weighted product with V); that the
  result array ends at `attn` of the arguments needs no hypothesis on the inputs (Proof/KernelWords, KernelTile, KernelBlock,
  KernelArray). The reference divides the scores by 256 where the kernel multiplies by 2⁻⁸, and normalises
  exp (s - M) by its own column sum, M(n, k) the maximum of s(n, ·, k): over the REALS the factor exp (-M) cancels and the two
  agree, which is why the inputs' finiteness is used there, and only there (Proof/RefIsAttn, Proof/RealInputs).
  The three frames are the generated ones; the idealization rewrote nothing, so `preserves` is `True`.
-/
import proofs.«160842_j22067541967525_2_alg».proof.Defs
import proofs.«160842_j22067541967525_2_alg».proof.Proof.Gen.Kernel
import proofs.«160842_j22067541967525_2_alg».proof.Proof.Gen.Kernel.Skeleton
import proofs.«160842_j22067541967525_2_alg».proof.Proof.Gen.Kernel.Launch
import proofs.«160842_j22067541967525_2_alg».proof.Proof.Gen.Kernel.Points
import proofs.«160842_j22067541967525_2_alg».proof.Proof.Gen.Kernel.Frame
import proofs.«160842_j22067541967525_2_alg».proof.Proof.Gen.KernelIdeal
import proofs.«160842_j22067541967525_2_alg».proof.Proof.Gen.KernelIdeal.Skeleton
import proofs.«160842_j22067541967525_2_alg».proof.Proof.Gen.KernelIdeal.Launch
import proofs.«160842_j22067541967525_2_alg».proof.Proof.Gen.KernelIdeal.Points
import proofs.«160842_j22067541967525_2_alg».proof.Proof.Gen.KernelIdeal.Frame
import proofs.«160842_j22067541967525_2_alg».proof.Proof.Gen.ReferenceIdeal
import proofs.«160842_j22067541967525_2_alg».proof.Proof.Gen.KernelIdeal.Value
import proofs.«160842_j22067541967525_2_alg».proof.Proof.Gen.ReferenceIdeal.Run
import proofs.«160842_j22067541967525_2_alg».proof.Proof.Gen.ReferenceIdeal.Read
import proofs.«160842_j22067541967525_2_alg».proof.Proof.Gen.Pre_finite_inputs
import proofs.«160842_j22067541967525_2_alg».proof.Proof.KernelArray
import proofs.«160842_j22067541967525_2_alg».proof.Proof.RefIsAttn
import proofs.«160842_j22067541967525_2_alg».proof.Proof.RealInputs
import Idealize.ShloMosaic.Adequacy
import Idealize.ShloMosaic.Init

noncomputable section

namespace Cert.Proof

open Idealize.ShloMosaic Idealize.SL.Sem

/-- Under finite inputs both idealized programs end with the result array at `attn` of the arguments: the kernel's run
    has it there outright, the reference's composed term is it once every input entry is a real. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => Cert.KernelIdeal.Final.G m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2, r3, r4, r5, r6⟩ :=
    @Cert.RealInputs.real_of_pre Cert.Pre_finite_inputs.Gen.facts _ _ _ _ _ _ _ (hpre c)
  obtain ⟨a0, a1, a2, a3, a4, a5, a6⟩ := hagree c
  rw [Cert.ReferenceIdeal.Read.val_main_v26_eq, a0, a1, a2, a3, a4, a5, a6]
  exact Cert.RefIsAttn.ref_eq_attn _ _ _ _ _ _ _ r0 r1 r2 r3 r4 r5 r6

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    algebraic⟩

end Cert.Proof

end
